-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S1000x10000 : Shape := ⟨2, ![1000, 10000]⟩
abbrev S1000x64 : Shape := ⟨2, ![1000, 64]⟩

abbrev nBuf : Space → Nat
  | .hbm => 15
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S10000x64, .f32⟩
  | .hbm, ⟨10, _⟩ => ⟨S10000x10000, .bf16⟩
  | .hbm, ⟨11, _⟩ => ⟨S1x64, .f32⟩
  | .hbm, ⟨12, _⟩ => ⟨S10000x64, .f32⟩
  | .hbm, ⟨13, _⟩ => ⟨S1x64, .f32⟩
  | .hbm, ⟨14, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S400x64, .f32⟩
  | .local _ .vmem, ⟨6, _⟩ => ⟨S400x64, .f32⟩
  | .local _ .vmem, ⟨7, _⟩ => ⟨S400x10000, .bf16⟩
  | .local _ .vmem, ⟨8, _⟩ => ⟨S400x10000, .bf16⟩
  | .local _ .vmem, ⟨9, _⟩ => ⟨S10000x64, .bf16⟩
  | .local _ .vmem, ⟨10, _⟩ => ⟨S1000x10000, .bf16⟩
  | .local _ .vmem, ⟨11, _⟩ => ⟨S1000x10000, .bf16⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S1000x64, .f32⟩
  | .local _ .vmem, ⟨16, _⟩ => ⟨S1000x64, .f32⟩
  | .local _ .vmem, ⟨17, _⟩ => ⟨S10000x64, .bf16⟩
  | .local _ .vmem, ⟨18, _⟩ => ⟨S1000x10000, .bf16⟩
  | .local _ .vmem, ⟨19, _⟩ => ⟨S1000x10000, .bf16⟩
  | .local _ .vmem, ⟨20, _⟩ => ⟨S10000x64, .f32⟩
  | .local _ .vmem, ⟨21, _⟩ => ⟨S64x64, .f32⟩
  | .local _ .vmem, ⟨22, _⟩ => ⟨S1x64, .f32⟩
  | .local _ .vmem, ⟨23, _⟩ => ⟨S1000x64, .f32⟩
  | .local _ .vmem, ⟨24, _⟩ => ⟨S1000x64, .f32⟩
  | .local _ .vmem, ⟨25, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x64_S10000x64_1_0_0_1_n_n_wf : DotDims.WF S10000x64 S64x64 S10000x64 [1] [0] [0] [1] [] []
  dot_S1000x10000_S10000x64_S1000x64_1_0_0_1_n_n_wf : DotDims.WF S1000x10000 S10000x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x64.size a ≤ S10000x64.size a
  hwx1_4 : ∀ i : grid1.Coords, EltTy.bits .f32 = 32 ∨ (Rect.block (s := S10000x64) S1000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x64.size a ≤ S10000x64.size a
  hwx2_4 : ∀ i : grid2.Coords, EltTy.bits .f32 = 32 ∨ (Rect.block (s := S10000x64) S1000x64.size (cc2_transform_4 i) (hinb2_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S_, .f32⟩
  | .hbm, ⟨15, _⟩ => ⟨S10000x64, .f32⟩
  | .hbm, ⟨16, _⟩ => ⟨S10000x64, .i1⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S_, .f32⟩
  | .hbm, ⟨28, _⟩ => ⟨S10000x64, .f32⟩
  | .hbm, ⟨29, _⟩ => ⟨S10000x64, .i1⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.R0Data.lean ====
/-
  Region 0 (layer 1) of the kernel program: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.KernelIdeal.Launch
import proofs.«154258_g15032385536406_cont_week2b_1259_11_alg».proof.Proof.Gen.KernelIdeal.Skeleton
import proofs.«154258_g15032385536406_cont_week2b_1259_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0_0 : Fin cfg0.N := ⟨0, by rw [show cfg0.N = 25 from N_0]; decide⟩

/-- The projected features h · W, computed from the whole feature and weight blocks at the first point. -/
def U0 (c : Dev nD) : Vec F S10000x64 .bf16 := k0_pay1 (iblk0 V c 1 t0_0) (iblk0 V c 2 t0_0)

/-- The kernel's scratch buffer, whole. -/
abbrev scM0 : Memref sig .tc .vmem S10000x64 .bf16 := Memref.whole cc0_scratch0

/-- The scoped buffers other than this kernel's staging buffers and its scratch, at anything. -/
abbrev But0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ But0 c) :=
  Pipeline.scopedRest_split_of_list spec0 c [cc0_scratch0] (by decide) (by decide)

/-- What the launch hands the body before the first point, with the scratch buffer named. -/
theorem PhiA0_eq (c : Dev nD) :
    (Pipeline.ΦA spec0 c : sProp 𝕄)
      = iprop(iprop((∃ d, owns (c : Thread nD τ) scM0 fullShare d) ∗ But0 c) ∗ (∃ r, prngReg c r)) := by
  unfold Pipeline.ΦA; rw [scopedRest0_split]; simp only [scM0, owns_whole]; try rfl

/-- The invariant before position n. -/
def PhiS0 (c : Dev nD) : ℕ → sProp 𝕄
  | 0 => Pipeline.ΦA spec0 c
  | _ + 1 => iprop(iprop(owns (c : Thread nD τ) scM0 fullShare (U0 V c) ∗ But0 c) ∗ (∃ r, prngReg c r))

theorem PhiS0_pos (c : Dev nD) (n : ℕ) (hz : n ≠ 0) :
    PhiS0 V c n = iprop(iprop(owns (c : Thread nD τ) scM0 fullShare (U0 V c) ∗ But0 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (U0 V c) (iblk0 V c 3 t)
    | ⟨5, _⟩ => k0_pay2 (iblk0 V c 0 t)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 0 t) (U0 V c) (iblk0 V c 3 t) := by dsimp only [dat0]
theorem after0_5 (c : Dev nD) (t : Fin cfg0.N) : (dat0 V c).after 5 t = k0_pay2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi0_castSucc (c : Dev nD) (t : Fin cfg0.N) : (dat0 V c).Φ t.castSucc = PhiS0 V c t.val := by
  dsimp only [dat0]; simp only [Fin.coe_castSucc]

theorem Phi0_succ (c : Dev nD) (t : Fin cfg0.N) :
    (dat0 V c).Φ t.succ = iprop(iprop(owns (c : Thread nD τ) scM0 fullShare (U0 V c) ∗ But0 c) ∗ (∃ r, prngReg c r)) := by
  dsimp only [dat0]; simp only [Fin.val_succ]; rfl

/-- Before the first point the invariant is what the launch hands over. -/
theorem Phi0_zero (c : Dev nD) : (dat0 V c).Φ 0 = Pipeline.ΦA spec0 c := rfl

/-- After the last point the invariant gives the scoped buffers back at anything. -/
theorem Phi0_last (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨HS, HB⟩, Hg⟩
  isplitl [HS HB]
  · isplitl [HS]
    · iexists _; iexact HS
    iexact HB
  iexact Hg

end Cert.KernelIdeal.Hand

end
-- ==== Proof.R1Data.lean ====
/-
  Region 1 (layer 2) of the kernel program: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.KernelIdeal.Launch
import proofs.«154258_g15032385536406_cont_week2b_1259_11_alg».proof.Proof.Gen.KernelIdeal.Skeleton
import proofs.«154258_g15032385536406_cont_week2b_1259_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the entry array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The grid's first point. -/
def t0_1 : Fin cfg1.N := ⟨0, by rw [show cfg1.N = 10 from N_1]; decide⟩

/-- The projected features h · W, computed from the whole feature and weight blocks at the first point. -/
def U1 (c : Dev nD) : Vec F S10000x64 .bf16 := k1_pay1 (iblk1 V c 1 t0_1) (iblk1 V c 2 t0_1)

/-- The kernel's scratch buffer, whole. -/
abbrev scM1 : Memref sig .tc .vmem S10000x64 .bf16 := Memref.whole cc1_scratch0

/-- The scoped buffers other than this kernel's staging buffers and its scratch, at anything. -/
abbrev But1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ But1 c) :=
  Pipeline.scopedRest_split_of_list spec1 c [cc1_scratch0] (by decide) (by decide)

/-- What the launch hands the body before the first point, with the scratch buffer named. -/
theorem PhiA1_eq (c : Dev nD) :
    (Pipeline.ΦA spec1 c : sProp 𝕄)
      = iprop(iprop((∃ d, owns (c : Thread nD τ) scM1 fullShare d) ∗ But1 c) ∗ (∃ r, prngReg c r)) := by
  unfold Pipeline.ΦA; rw [scopedRest1_split]; simp only [scM1, owns_whole]; try rfl

/-- The invariant before position n. -/
def PhiS1 (c : Dev nD) : ℕ → sProp 𝕄
  | 0 => Pipeline.ΦA spec1 c
  | _ + 1 => iprop(iprop(owns (c : Thread nD τ) scM1 fullShare (U1 V c) ∗ But1 c) ∗ (∃ r, prngReg c r))

theorem PhiS1_pos (c : Dev nD) (n : ℕ) (hz : n ≠ 0) :
    PhiS1 V c n = iprop(iprop(owns (c : Thread nD τ) scM1 fullShare (U1 V c) ∗ But1 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 0 t) (U1 V c) (iblk1 V c 3 t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (iblk1 V c 0 t) (U1 V c) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem Phi1_castSucc (c : Dev nD) (t : Fin cfg1.N) : (dat1 V c).Φ t.castSucc = PhiS1 V c t.val := by
  dsimp only [dat1]; simp only [Fin.coe_castSucc]

theorem Phi1_succ (c : Dev nD) (t : Fin cfg1.N) :
    (dat1 V c).Φ t.succ = iprop(iprop(owns (c : Thread nD τ) scM1 fullShare (U1 V c) ∗ But1 c) ∗ (∃ r, prngReg c r)) := by
  dsimp only [dat1]; simp only [Fin.val_succ]; rfl

/-- Before the first point the invariant is what the launch hands over. -/
theorem Phi1_zero (c : Dev nD) : (dat1 V c).Φ 0 = Pipeline.ΦA spec1 c := rfl

/-- After the last point the invariant gives the scoped buffers back at anything. -/
theorem Phi1_last (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 10 := N_1; omega), PhiA1_eq]
  iintro ⟨⟨HS, HB⟩, Hg⟩
  isplitl [HS HB]
  · isplitl [HS]
    · iexists _; iexact HS
    iexact HB
  iexact Hg

end Cert.KernelIdeal.Hand

end
-- ==== Proof.R2Data.lean ====
/-
  Region 2 (layer 3) of the kernel program: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.KernelIdeal.Launch
import proofs.«154258_g15032385536406_cont_week2b_1259_11_alg».proof.Proof.Gen.KernelIdeal.Skeleton
import proofs.«154258_g15032385536406_cont_week2b_1259_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block of the entry array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The grid's first point. -/
def t0_2 : Fin cfg2.N := ⟨0, by rw [show cfg2.N = 10 from N_2]; decide⟩

/-- The projected features h · W, computed from the whole feature and weight blocks at the first point. -/
def U2 (c : Dev nD) : Vec F S10000x64 .bf16 := k2_pay1 (iblk2 V c 1 t0_2) (iblk2 V c 2 t0_2)

/-- The kernel's scratch buffer, whole. -/
abbrev scM2 : Memref sig .tc .vmem S10000x64 .bf16 := Memref.whole cc2_scratch0

/-- The scoped buffers other than this kernel's staging buffers and its scratch, at anything. -/
abbrev But2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ But2 c) :=
  Pipeline.scopedRest_split_of_list spec2 c [cc2_scratch0] (by decide) (by decide)

/-- What the launch hands the body before the first point, with the scratch buffer named. -/
theorem PhiA2_eq (c : Dev nD) :
    (Pipeline.ΦA spec2 c : sProp 𝕄)
      = iprop(iprop((∃ d, owns (c : Thread nD τ) scM2 fullShare d) ∗ But2 c) ∗ (∃ r, prngReg c r)) := by
  unfold Pipeline.ΦA; rw [scopedRest2_split]; simp only [scM2, owns_whole]; try rfl

/-- The invariant before position n. -/
def PhiS2 (c : Dev nD) : ℕ → sProp 𝕄
  | 0 => Pipeline.ΦA spec2 c
  | _ + 1 => iprop(iprop(owns (c : Thread nD τ) scM2 fullShare (U2 V c) ∗ But2 c) ∗ (∃ r, prngReg c r))

theorem PhiS2_pos (c : Dev nD) (n : ℕ) (hz : n ≠ 0) :
    PhiS2 V c n = iprop(iprop(owns (c : Thread nD τ) scM2 fullShare (U2 V c) ∗ But2 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (U2 V c) (iblk2 V c 3 t)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (U2 V c) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem Phi2_castSucc (c : Dev nD) (t : Fin cfg2.N) : (dat2 V c).Φ t.castSucc = PhiS2 V c t.val := by
  dsimp only [dat2]; simp only [Fin.coe_castSucc]

theorem Phi2_succ (c : Dev nD) (t : Fin cfg2.N) :
    (dat2 V c).Φ t.succ = iprop(iprop(owns (c : Thread nD τ) scM2 fullShare (U2 V c) ∗ But2 c) ∗ (∃ r, prngReg c r)) := by
  dsimp only [dat2]; simp only [Fin.val_succ]; rfl

/-- Before the first point the invariant is what the launch hands over. -/
theorem Phi2_zero (c : Dev nD) : (dat2 V c).Φ 0 = Pipeline.ΦA spec2 c := rfl

/-- After the last point the invariant gives the scoped buffers back at anything. -/
theorem Phi2_last (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 10 := N_2; omega), PhiA2_eq]
  iintro ⟨⟨HS, HB⟩, Hg⟩
  isplitl [HS HB]
  · isplitl [HS]
    · iexists _; iexact HS
    iexact HB
  iexact Hg

end Cert.KernelIdeal.Hand

end
-- ==== Proof.HandRun.lean ====
/-
  The kernel program's run from the launch to the return, given what each of its three regions' bodies does at a grid point.

  The program lays a bias vector out as a row, runs a region, and does so three times.  Between two of these six segments a
  core holds every buffer that outlives a region at known contents, its generator register at some state, and owes
  nothing.  The contents are followed segment by segment from the launch memory: a reshape writes its row and nothing else; a
  region changes only the arrays its windows stage, leaving each input array as it found it and each output array at what its
  write-backs, taken in grid order, make of it.  Each region's pipeline data are taken at the contents the region is
  entered from, so that what a region reads is exactly what the segments before it left.

  From these the launch rule for a program of several regions gives the run: every fair execution ends without fault, and in
  the final state every such buffer holds the last boundary's contents.  Read at an argument array those contents walk back,
  through input windows and untouched buffers, to the launch memory; read at the result array they are what the third region's
  write-backs leave there.
-/
import proofs.«154258_g15032385536406_cont_week2b_1259_11_alg».proof.Proof.R0Data
import proofs.«154258_g15032385536406_cont_week2b_1259_11_alg».proof.Proof.R1Data
import proofs.«154258_g15032385536406_cont_week2b_1259_11_alg».proof.Proof.R2Data
import proofs.«154258_g15032385536406_cont_week2b_1259_11_alg».proof.Proof.Gen.KernelIdeal.Launch
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments

The program is six segments: a reshape of a bias vector into a row, then a region, three times over.  A reshape writes its
row and nothing else; a region changes only the arrays its windows stage, and of those only its outputs. -/

/-- Core c's buffers at launch. -/
abbrev W0 : Dev nD → Valuation τ sig (Elt F) := fun c b => (s₀ m ρ).mem ((c : Dev nD), b)

/-- Core c's buffers after the bias vector main_arg3 has been laid out as the row main_v0 (region 0's entry). -/
abbrev W1 : Dev nD → Valuation τ sig (Elt F) := fun c => StableHlo.after hostOps0 (W0 m ρ c)
/-- The same contents read at the compute core's references: what region 0's data are taken at. -/
abbrev V1 : (c : Dev nD) → (b : Ref sig .tc) → Buf (Elt F) ((c : Thread nD τ).loc b) := fun c b => W1 m ρ c b
/-- The reshape writes main_v0 only. -/
theorem W1_of (c : Dev nD) (b : Ref sig .tc) (hb : b ≠ main_v0) :
    W1 m ρ c (Proc.devRef .tc b) = W0 m ρ c (Proc.devRef .tc b) :=
  StableHlo.reshape_result_ne main_arg3 main_v0 rfl shapeCasts_S64_S1x64 _ _ (W0 m ρ c) hb
/-- and leaves in it the vector's 64 entries as one row. -/
theorem W1_main_v0 (c : Dev nD) :
    W1 m ρ c (Proc.devRef .tc main_v0) = shapeCast S1x64 (W0 m ρ c (Proc.devRef .tc main_arg3)) shapeCasts_S64_S1x64 := by
  simp only [StableHlo.after_cons, StableHlo.after_nil]
  rw [StableHlo.reshape_result]
  try rfl

/-- Core c's buffers when region 0 is left: the region's arrays at what its write-backs have made of them (an input
    array is never written; an output array holds, block by block, what the body stored), every other buffer as it was
    when the region was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the compute core's references. -/
abbrev V2 : (c : Dev nD) → (b : Ref sig .tc) → Buf (Elt F) ((c : Thread nD τ).loc b) := fun c b => W2 m ρ c b
/-- At the exit each array of the region holds what the pipeline leaves in it, and every other buffer what it held at
    the entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Core c's buffers after the bias vector main_arg5 has been laid out as the row main_v2 (region 1's entry). -/
abbrev W3 : Dev nD → Valuation τ sig (Elt F) := fun c => StableHlo.after hostOps1 (W2 m ρ c)
/-- The same contents read at the compute core's references: what region 1's data are taken at. -/
abbrev V3 : (c : Dev nD) → (b : Ref sig .tc) → Buf (Elt F) ((c : Thread nD τ).loc b) := fun c b => W3 m ρ c b
/-- The reshape writes main_v2 only. -/
theorem W3_of (c : Dev nD) (b : Ref sig .tc) (hb : b ≠ main_v2) :
    W3 m ρ c (Proc.devRef .tc b) = W2 m ρ c (Proc.devRef .tc b) :=
  StableHlo.reshape_result_ne main_arg5 main_v2 rfl shapeCasts_S64_S1x64 _ _ (W2 m ρ c) hb
/-- and leaves in it the vector's 64 entries as one row. -/
theorem W3_main_v2 (c : Dev nD) :
    W3 m ρ c (Proc.devRef .tc main_v2) = shapeCast S1x64 (W2 m ρ c (Proc.devRef .tc main_arg5)) shapeCasts_S64_S1x64 := by
  simp only [StableHlo.after_cons, StableHlo.after_nil]
  rw [StableHlo.reshape_result]
  try rfl

/-- Core c's buffers when region 1 is left: the region's arrays at what its write-backs have made of them (an input
    array is never written; an output array holds, block by block, what the body stored), every other buffer as it was
    when the region was entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the compute core's references. -/
abbrev V4 : (c : Dev nD) → (b : Ref sig .tc) → Buf (Elt F) ((c : Thread nD τ).loc b) := fun c b => W4 m ρ c b
/-- At the exit each array of the region holds what the pipeline leaves in it, and every other buffer what it held at
    the entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Core c's buffers after the bias vector main_arg7 has been laid out as the row main_v4 (region 2's entry). -/
abbrev W5 : Dev nD → Valuation τ sig (Elt F) := fun c => StableHlo.after hostOps2 (W4 m ρ c)
/-- The same contents read at the compute core's references: what region 2's data are taken at. -/
abbrev V5 : (c : Dev nD) → (b : Ref sig .tc) → Buf (Elt F) ((c : Thread nD τ).loc b) := fun c b => W5 m ρ c b
/-- The reshape writes main_v4 only. -/
theorem W5_of (c : Dev nD) (b : Ref sig .tc) (hb : b ≠ main_v4) :
    W5 m ρ c (Proc.devRef .tc b) = W4 m ρ c (Proc.devRef .tc b) :=
  StableHlo.reshape_result_ne main_arg7 main_v4 rfl shapeCasts_S64_S1x64 _ _ (W4 m ρ c) hb
/-- and leaves in it the vector's 64 entries as one row. -/
theorem W5_main_v4 (c : Dev nD) :
    W5 m ρ c (Proc.devRef .tc main_v4) = shapeCast S1x64 (W4 m ρ c (Proc.devRef .tc main_arg7)) shapeCasts_S64_S1x64 := by
  simp only [StableHlo.after_cons, StableHlo.after_nil]
  rw [StableHlo.reshape_result]
  try rfl

/-- Core c's buffers when region 2 is left: the region's arrays at what its write-backs have made of them (an input
    array is never written; an output array holds, block by block, what the body stored), every other buffer as it was
    when the region was entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the compute core's references. -/
abbrev V6 : (c : Dev nD) → (b : Ref sig .tc) → Buf (Elt F) ((c : Thread nD τ).loc b) := fun c b => W6 m ρ c b
/-- At the exit each array of the region holds what the pipeline leaves in it, and every other buffer what it held at
    the entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No reshape and no region writes an argument array: a region reads it through an input window, which leaves the array as
it was, or does not touch it at all.  So reading the last boundary's contents at an argument walks back, segment by
segment, to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 2).trans (((dat2 (V5 m ρ) c).arrAt_in 2 rfl _).trans (A_eq2 (V5 m ρ) c 2))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- The result array at the end is what region 2's write-backs leave in it. -/
theorem W6_main_v5 (c : Dev nD) : W6 m ρ c (Proc.devRef .tc main_v5) = (dat2 (V5 m ρ) c).arrAt 4 cfg2.N := W6_arr m ρ c 4

/-! ## What each region finds in its input arrays

Region 0 finds the arguments and the first bias row; region 1 finds region 0's two outputs, its weights and the second
bias row; region 2 finds region 0's second output, region 1's output, its weights and the third bias row. -/

theorem V1_main_arg1 (c : Dev nD) : V1 m ρ c main_arg1 = m ((c : Thread nD τ).loc main_arg1) :=
  calc V1 m ρ c main_arg1
    _ = W0 m ρ c (Proc.devRef .tc main_arg1) := W1_of m ρ c main_arg1 (by decide)
    _ = m ((c : Thread nD τ).loc main_arg1) := rfl

theorem V1_main_arg0 (c : Dev nD) : V1 m ρ c main_arg0 = m ((c : Thread nD τ).loc main_arg0) :=
  calc V1 m ρ c main_arg0
    _ = W0 m ρ c (Proc.devRef .tc main_arg0) := W1_of m ρ c main_arg0 (by decide)
    _ = m ((c : Thread nD τ).loc main_arg0) := rfl

theorem V1_main_arg2 (c : Dev nD) : V1 m ρ c main_arg2 = m ((c : Thread nD τ).loc main_arg2) :=
  calc V1 m ρ c main_arg2
    _ = W0 m ρ c (Proc.devRef .tc main_arg2) := W1_of m ρ c main_arg2 (by decide)
    _ = m ((c : Thread nD τ).loc main_arg2) := rfl

theorem V1_main_v0 (c : Dev nD) : V1 m ρ c main_v0 = shapeCast S1x64 (m ((c : Thread nD τ).loc main_arg3)) shapeCasts_S64_S1x64 :=
  calc V1 m ρ c main_v0
    _ = shapeCast S1x64 (W0 m ρ c (Proc.devRef .tc main_arg3)) shapeCasts_S64_S1x64 := W1_main_v0 m ρ c
    _ = shapeCast S1x64 (m ((c : Thread nD τ).loc main_arg3)) shapeCasts_S64_S1x64 := congrArg (fun v => shapeCast S1x64 v shapeCasts_S64_S1x64) ((show _ = m ((c : Thread nD τ).loc main_arg3) from rfl))

theorem V3_main_v1_1 (c : Dev nD) : V3 m ρ c main_v1_1 = (dat0 (V1 m ρ) c).arrAt 5 cfg0.N :=
  calc V3 m ρ c main_v1_1
    _ = W2 m ρ c (Proc.devRef .tc main_v1_1) := W3_of m ρ c main_v1_1 (by decide)
    _ = (dat0 (V1 m ρ) c).arrAt 5 cfg0.N := W2_arr m ρ c 5

theorem V3_main_v1_0 (c : Dev nD) : V3 m ρ c main_v1_0 = (dat0 (V1 m ρ) c).arrAt 4 cfg0.N :=
  calc V3 m ρ c main_v1_0
    _ = W2 m ρ c (Proc.devRef .tc main_v1_0) := W3_of m ρ c main_v1_0 (by decide)
    _ = (dat0 (V1 m ρ) c).arrAt 4 cfg0.N := W2_arr m ρ c 4

theorem V3_main_arg4 (c : Dev nD) : V3 m ρ c main_arg4 = m ((c : Thread nD τ).loc main_arg4) :=
  calc V3 m ρ c main_arg4
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem V3_main_v2 (c : Dev nD) : V3 m ρ c main_v2 = shapeCast S1x64 (m ((c : Thread nD τ).loc main_arg5)) shapeCasts_S64_S1x64 :=
  calc V3 m ρ c main_v2
    _ = shapeCast S1x64 (W2 m ρ c (Proc.devRef .tc main_arg5)) shapeCasts_S64_S1x64 := W3_main_v2 m ρ c
    _ = shapeCast S1x64 (m ((c : Thread nD τ).loc main_arg5)) shapeCasts_S64_S1x64 := congrArg (fun v => shapeCast S1x64 v shapeCasts_S64_S1x64) (((show _ = W1 m ρ c (Proc.devRef .tc main_arg5) from W2_of_ne m ρ c main_arg5 (by decide))).trans (((show _ = W0 m ρ c (Proc.devRef .tc main_arg5) from W1_of m ρ c main_arg5 (by decide))).trans ((show _ = m ((c : Thread nD τ).loc main_arg5) from rfl))))

theorem V5_main_v1_1 (c : Dev nD) : V5 m ρ c main_v1_1 = (dat0 (V1 m ρ) c).arrAt 5 cfg0.N :=
  calc V5 m ρ c main_v1_1
    _ = W4 m ρ c (Proc.devRef .tc main_v1_1) := W5_of m ρ c main_v1_1 (by decide)
    _ = W3 m ρ c (Proc.devRef .tc main_v1_1) := (W4_arr m ρ c 0).trans (((dat1 (V3 m ρ) c).arrAt_in 0 rfl _).trans (A_eq1 (V3 m ρ) c 0))
    _ = W2 m ρ c (Proc.devRef .tc main_v1_1) := W3_of m ρ c main_v1_1 (by decide)
    _ = (dat0 (V1 m ρ) c).arrAt 5 cfg0.N := W2_arr m ρ c 5

theorem V5_main_v3 (c : Dev nD) : V5 m ρ c main_v3 = (dat1 (V3 m ρ) c).arrAt 4 cfg1.N :=
  calc V5 m ρ c main_v3
    _ = W4 m ρ c (Proc.devRef .tc main_v3) := W5_of m ρ c main_v3 (by decide)
    _ = (dat1 (V3 m ρ) c).arrAt 4 cfg1.N := W4_arr m ρ c 4

theorem V5_main_arg6 (c : Dev nD) : V5 m ρ c main_arg6 = m ((c : Thread nD τ).loc main_arg6) :=
  calc V5 m ρ c main_arg6
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem V5_main_v4 (c : Dev nD) : V5 m ρ c main_v4 = shapeCast S1x64 (m ((c : Thread nD τ).loc main_arg7)) shapeCasts_S64_S1x64 :=
  calc V5 m ρ c main_v4
    _ = shapeCast S1x64 (W4 m ρ c (Proc.devRef .tc main_arg7)) shapeCasts_S64_S1x64 := W5_main_v4 m ρ c
    _ = shapeCast S1x64 (m ((c : Thread nD τ).loc main_arg7)) shapeCasts_S64_S1x64 := congrArg (fun v => shapeCast S1x64 v shapeCasts_S64_S1x64) (((show _ = W3 m ρ c (Proc.devRef .tc main_arg7) from W4_of_ne m ρ c main_arg7 (by decide))).trans (((show _ = W2 m ρ c (Proc.devRef .tc main_arg7) from W3_of m ρ c main_arg7 (by decide))).trans (((show _ = W1 m ρ c (Proc.devRef .tc main_arg7) from W2_of_ne m ρ c main_arg7 (by decide))).trans (((show _ = W0 m ρ c (Proc.devRef .tc main_arg7) from W1_of m ρ c main_arg7 (by decide))).trans ((show _ = m ((c : Thread nD τ).loc main_arg7) from rfl))))))

/-! ## The pipelines' data and the state a core carries between segments -/

/-- No pipeline reads a prefetched table. -/
abbrev adm : (p : Fin 3) → (pcfgs (F := F) p).Adm := fun p => (cfgs p).toPCfg_adm
/-- Every pipeline's data, each taken at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and the record that it owes nothing. -/
abbrev R (c : Dev nD) : sProp 𝕄 := iprop((∃ r, prngReg c r) ∗ ∃ W, owes (c : Thread nD τ) (0 : CellTallies nD τ sig Unit) W)
/-- A reshape as a segment: from every unscoped buffer at W it runs to the same buffers at the contents after it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reshape allocates nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the compute core is among those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debt record: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the carried state: entered with every unscoped buffer at W1, left with them at W2.  At the
    entry the region's arrays are taken out of the unscoped buffers and the rest set aside; the generator register goes
    into the pipeline's invariant and comes back out of it; at the exit the arrays, now at what the pipeline left, are
    put back beside the rest. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the carried state: entered with every unscoped buffer at W3, left with them at W4.  At the
    entry the region's arrays are taken out of the unscoped buffers and the rest set aside; the generator register goes
    into the pipeline's invariant and comes back out of it; at the exit the arrays, now at what the pipeline left, are
    put back beside the rest. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the carried state: entered with every unscoped buffer at W5, left with them at W6.  At the
    entry the region's arrays are taken out of the unscoped buffers and the rest set aside; the generator register goes
    into the pipeline's invariant and comes back out of it; at the exit the arrays, now at what the pipeline left, are
    put back beside the rest. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

/-- The segments in order: each reshape from its boundary's contents, each region after it. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2) ]

/-- The program is the run of those segments. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) (c : Dev nD) :
    main (F := F) c = Pipeline.Seg.run (segs m ρ hb0 hb1 hb2) := (main_chain c).trans (by chain_rfl)

set_option backward.isDefEq.respectTransparency.types false in
/-- From any memory with all counters at zero, every fair execution of the program on the compute cores ends, without
    fault, and in every final state each unscoped buffer of core c holds the last boundary's contents. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- In particular the program runs to its end and every argument array ends as launched. -/
theorem frame_of_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (run_all m ρ hb0 hb1 hb2)

end Cert.KernelIdeal.Hand

end
-- ==== Proof.WR0Data.lean ====
/-
  Region 0 (layer 1) of the kernel program read at the word level: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.Kernel.Launch
import proofs.«154258_g15032385536406_cont_week2b_1259_11_alg».proof.Proof.Gen.Kernel.Skeleton
import proofs.«154258_g15032385536406_cont_week2b_1259_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0_0 : Fin cfg0.N := ⟨0, by rw [show cfg0.N = 25 from N_0]; decide⟩

/-- The projected features h · W, computed from the whole feature and weight blocks at the first point. -/
def U0 (c : Dev nD) : Vec F S10000x64 .bf16 := k0_pay1 (iblk0 V c 1 t0_0) (iblk0 V c 2 t0_0)

/-- The kernel's scratch buffer, whole. -/
abbrev scM0 : Memref sig .tc .vmem S10000x64 .bf16 := Memref.whole cc0_scratch0

/-- The scoped buffers other than this kernel's staging buffers and its scratch, at anything. -/
abbrev But0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ But0 c) :=
  Pipeline.scopedRest_split_of_list spec0 c [cc0_scratch0] (by decide) (by decide)

/-- What the launch hands the body before the first point, with the scratch buffer named. -/
theorem PhiA0_eq (c : Dev nD) :
    (Pipeline.ΦA spec0 c : sProp 𝕄)
      = iprop(iprop((∃ d, owns (c : Thread nD τ) scM0 fullShare d) ∗ But0 c) ∗ (∃ r, prngReg c r)) := by
  unfold Pipeline.ΦA; rw [scopedRest0_split]; simp only [scM0, owns_whole]; try rfl

/-- The invariant before position n. -/
def PhiS0 (c : Dev nD) : ℕ → sProp 𝕄
  | 0 => Pipeline.ΦA spec0 c
  | _ + 1 => iprop(iprop(owns (c : Thread nD τ) scM0 fullShare (U0 V c) ∗ But0 c) ∗ (∃ r, prngReg c r))

theorem PhiS0_pos (c : Dev nD) (n : ℕ) (hz : n ≠ 0) :
    PhiS0 V c n = iprop(iprop(owns (c : Thread nD τ) scM0 fullShare (U0 V c) ∗ But0 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (U0 V c) (iblk0 V c 3 t)
    | ⟨5, _⟩ => k0_pay2 (iblk0 V c 0 t)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 0 t) (U0 V c) (iblk0 V c 3 t) := by dsimp only [dat0]
theorem after0_5 (c : Dev nD) (t : Fin cfg0.N) : (dat0 V c).after 5 t = k0_pay2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi0_castSucc (c : Dev nD) (t : Fin cfg0.N) : (dat0 V c).Φ t.castSucc = PhiS0 V c t.val := by
  dsimp only [dat0]; simp only [Fin.coe_castSucc]

theorem Phi0_succ (c : Dev nD) (t : Fin cfg0.N) :
    (dat0 V c).Φ t.succ = iprop(iprop(owns (c : Thread nD τ) scM0 fullShare (U0 V c) ∗ But0 c) ∗ (∃ r, prngReg c r)) := by
  dsimp only [dat0]; simp only [Fin.val_succ]; rfl

/-- Before the first point the invariant is what the launch hands over. -/
theorem Phi0_zero (c : Dev nD) : (dat0 V c).Φ 0 = Pipeline.ΦA spec0 c := rfl

/-- After the last point the invariant gives the scoped buffers back at anything. -/
theorem Phi0_last (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨HS, HB⟩, Hg⟩
  isplitl [HS HB]
  · isplitl [HS]
    · iexists _; iexact HS
    iexact HB
  iexact Hg

end Cert.Kernel.Hand

end
-- ==== Proof.WR1Data.lean ====
/-
  Region 1 (layer 2) of the kernel program read at the word level: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.Kernel.Launch
import proofs.«154258_g15032385536406_cont_week2b_1259_11_alg».proof.Proof.Gen.Kernel.Skeleton
import proofs.«154258_g15032385536406_cont_week2b_1259_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the entry array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry array at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The grid's first point. -/
def t0_1 : Fin cfg1.N := ⟨0, by rw [show cfg1.N = 10 from N_1]; decide⟩

/-- The projected features h · W, computed from the whole feature and weight blocks at the first point. -/
def U1 (c : Dev nD) : Vec F S10000x64 .bf16 := k1_pay1 (iblk1 V c 1 t0_1) (iblk1 V c 2 t0_1)

/-- The kernel's scratch buffer, whole. -/
abbrev scM1 : Memref sig .tc .vmem S10000x64 .bf16 := Memref.whole cc1_scratch0

/-- The scoped buffers other than this kernel's staging buffers and its scratch, at anything. -/
abbrev But1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ But1 c) :=
  Pipeline.scopedRest_split_of_list spec1 c [cc1_scratch0] (by decide) (by decide)

/-- What the launch hands the body before the first point, with the scratch buffer named. -/
theorem PhiA1_eq (c : Dev nD) :
    (Pipeline.ΦA spec1 c : sProp 𝕄)
      = iprop(iprop((∃ d, owns (c : Thread nD τ) scM1 fullShare d) ∗ But1 c) ∗ (∃ r, prngReg c r)) := by
  unfold Pipeline.ΦA; rw [scopedRest1_split]; simp only [scM1, owns_whole]; try rfl

/-- The invariant before position n. -/
def PhiS1 (c : Dev nD) : ℕ → sProp 𝕄
  | 0 => Pipeline.ΦA spec1 c
  | _ + 1 => iprop(iprop(owns (c : Thread nD τ) scM1 fullShare (U1 V c) ∗ But1 c) ∗ (∃ r, prngReg c r))

theorem PhiS1_pos (c : Dev nD) (n : ℕ) (hz : n ≠ 0) :
    PhiS1 V c n = iprop(iprop(owns (c : Thread nD τ) scM1 fullShare (U1 V c) ∗ But1 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 0 t) (U1 V c) (iblk1 V c 3 t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (iblk1 V c 0 t) (U1 V c) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem Phi1_castSucc (c : Dev nD) (t : Fin cfg1.N) : (dat1 V c).Φ t.castSucc = PhiS1 V c t.val := by
  dsimp only [dat1]; simp only [Fin.coe_castSucc]

theorem Phi1_succ (c : Dev nD) (t : Fin cfg1.N) :
    (dat1 V c).Φ t.succ = iprop(iprop(owns (c : Thread nD τ) scM1 fullShare (U1 V c) ∗ But1 c) ∗ (∃ r, prngReg c r)) := by
  dsimp only [dat1]; simp only [Fin.val_succ]; rfl

/-- Before the first point the invariant is what the launch hands over. -/
theorem Phi1_zero (c : Dev nD) : (dat1 V c).Φ 0 = Pipeline.ΦA spec1 c := rfl

/-- After the last point the invariant gives the scoped buffers back at anything. -/
theorem Phi1_last (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 10 := N_1; omega), PhiA1_eq]
  iintro ⟨⟨HS, HB⟩, Hg⟩
  isplitl [HS HB]
  · isplitl [HS]
    · iexists _; iexact HS
    iexact HB
  iexact Hg

end Cert.Kernel.Hand

end
-- ==== Proof.WR2Data.lean ====
/-
  Region 2 (layer 3) of the kernel program read at the word level: its windows' blocks, the projected feature matrix the body computes once at the
  grid's first point and keeps in its scratch buffer, and the data the pipeline's launch rule asks for — what every
  staging buffer holds after the body at each point, and the invariant carried from point to point: before the first
  point the scoped buffers at anything, afterwards the scratch buffer at the projected features (the same at every
  later point: the body writes it only at the first), the other scoped buffers at anything.
-/
import proofs.«154258_g15032385536406_cont_week2b_1259_11_alg».proof.Proof.Gen.Kernel.Launch
import proofs.«154258_g15032385536406_cont_week2b_1259_11_alg».proof.Proof.Gen.Kernel.Skeleton
import proofs.«154258_g15032385536406_cont_week2b_1259_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block of the entry array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block of the entry array at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The grid's first point. -/
def t0_2 : Fin cfg2.N := ⟨0, by rw [show cfg2.N = 10 from N_2]; decide⟩

/-- The projected features h · W, computed from the whole feature and weight blocks at the first point. -/
def U2 (c : Dev nD) : Vec F S10000x64 .bf16 := k2_pay1 (iblk2 V c 1 t0_2) (iblk2 V c 2 t0_2)

/-- The kernel's scratch buffer, whole. -/
abbrev scM2 : Memref sig .tc .vmem S10000x64 .bf16 := Memref.whole cc2_scratch0

/-- The scoped buffers other than this kernel's staging buffers and its scratch, at anything. -/
abbrev But2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ But2 c) :=
  Pipeline.scopedRest_split_of_list spec2 c [cc2_scratch0] (by decide) (by decide)

/-- What the launch hands the body before the first point, with the scratch buffer named. -/
theorem PhiA2_eq (c : Dev nD) :
    (Pipeline.ΦA spec2 c : sProp 𝕄)
      = iprop(iprop((∃ d, owns (c : Thread nD τ) scM2 fullShare d) ∗ But2 c) ∗ (∃ r, prngReg c r)) := by
  unfold Pipeline.ΦA; rw [scopedRest2_split]; simp only [scM2, owns_whole]; try rfl

/-- The invariant before position n. -/
def PhiS2 (c : Dev nD) : ℕ → sProp 𝕄
  | 0 => Pipeline.ΦA spec2 c
  | _ + 1 => iprop(iprop(owns (c : Thread nD τ) scM2 fullShare (U2 V c) ∗ But2 c) ∗ (∃ r, prngReg c r))

theorem PhiS2_pos (c : Dev nD) (n : ℕ) (hz : n ≠ 0) :
    PhiS2 V c n = iprop(iprop(owns (c : Thread nD τ) scM2 fullShare (U2 V c) ∗ But2 c) ∗ (∃ r, prngReg c r)) := by
  cases n with
  | zero => exact absurd rfl hz
  | succ n => rfl

/-- The pipeline's proof data on core c: the arrays as the region finds them; after the body each input's buffer at
    its block, each output's at the body's stored value of the point's blocks and the projected features. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (U2 V c) (iblk2 V c 3 t)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (U2 V c) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem Phi2_castSucc (c : Dev nD) (t : Fin cfg2.N) : (dat2 V c).Φ t.castSucc = PhiS2 V c t.val := by
  dsimp only [dat2]; simp only [Fin.coe_castSucc]

theorem Phi2_succ (c : Dev nD) (t : Fin cfg2.N) :
    (dat2 V c).Φ t.succ = iprop(iprop(owns (c : Thread nD τ) scM2 fullShare (U2 V c) ∗ But2 c) ∗ (∃ r, prngReg c r)) := by
  dsimp only [dat2]; simp only [Fin.val_succ]; rfl

/-- Before the first point the invariant is what the launch hands over. -/
theorem Phi2_zero (c : Dev nD) : (dat2 V c).Φ 0 = Pipeline.ΦA spec2 c := rfl

/-- After the last point the invariant gives the scoped buffers back at anything. -/
theorem Phi2_last (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 10 := N_2; omega), PhiA2_eq]
  iintro ⟨⟨HS, HB⟩, Hg⟩
  isplitl [HS HB]
  · isplitl [HS]
    · iexists _; iexact HS
    iexact HB
  iexact Hg

end Cert.Kernel.Hand

end
-- ==== Proof.WHandRun.lean ====
/-
  The kernel program's run from the launch to the return, given what each of its three regions' bodies does at a grid point.

  The program lays a bias vector out as a row, runs a region, and does so three times.  Between two of these six segments a
  core holds every buffer that outlives a region at known contents, its generator register at some state, and owes
  nothing.  The contents are followed segment by segment from the launch memory: a reshape writes its row and nothing else; a
  region changes only the arrays its windows stage, leaving each input array as it found it and each output array at what its
  write-backs, taken in grid order, make of it.  Each region's pipeline data are taken at the contents the region is
  entered from, so that what a region reads is exactly what the segments before it left.

  From these the launch rule for a program of several regions gives the run: every fair execution ends without fault, and in
  the final state every such buffer holds the last boundary's contents.  Read at an argument array those contents walk back,
  through input windows and untouched buffers, to the launch memory; read at the result array they are what the third region's
  write-backs leave there.
-/
import proofs.«154258_g15032385536406_cont_week2b_1259_11_alg».proof.Proof.WR0Data
import proofs.«154258_g15032385536406_cont_week2b_1259_11_alg».proof.Proof.WR1Data
import proofs.«154258_g15032385536406_cont_week2b_1259_11_alg».proof.Proof.WR2Data
import proofs.«154258_g15032385536406_cont_week2b_1259_11_alg».proof.Proof.Gen.Kernel.Launch
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments

The program is six segments: a reshape of a bias vector into a row, then a region, three times over.  A reshape writes its
row and nothing else; a region changes only the arrays its windows stage, and of those only its outputs. -/

/-- Core c's buffers at launch. -/
abbrev W0 : Dev nD → Valuation τ sig (Elt F) := fun c b => (s₀ m ρ).mem ((c : Dev nD), b)

/-- Core c's buffers after the bias vector main_arg3 has been laid out as the row main_v0 (region 0's entry). -/
abbrev W1 : Dev nD → Valuation τ sig (Elt F) := fun c => StableHlo.after hostOps0 (W0 m ρ c)
/-- The same contents read at the compute core's references: what region 0's data are taken at. -/
abbrev V1 : (c : Dev nD) → (b : Ref sig .tc) → Buf (Elt F) ((c : Thread nD τ).loc b) := fun c b => W1 m ρ c b
/-- The reshape writes main_v0 only. -/
theorem W1_of (c : Dev nD) (b : Ref sig .tc) (hb : b ≠ main_v0) :
    W1 m ρ c (Proc.devRef .tc b) = W0 m ρ c (Proc.devRef .tc b) :=
  StableHlo.reshape_result_ne main_arg3 main_v0 rfl shapeCasts_S64_S1x64 _ _ (W0 m ρ c) hb
/-- and leaves in it the vector's 64 entries as one row. -/
theorem W1_main_v0 (c : Dev nD) :
    W1 m ρ c (Proc.devRef .tc main_v0) = shapeCast S1x64 (W0 m ρ c (Proc.devRef .tc main_arg3)) shapeCasts_S64_S1x64 := by
  simp only [StableHlo.after_cons, StableHlo.after_nil]
  rw [StableHlo.reshape_result]
  try rfl

/-- Core c's buffers when region 0 is left: the region's arrays at what its write-backs have made of them (an input
    array is never written; an output array holds, block by block, what the body stored), every other buffer as it was
    when the region was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the compute core's references. -/
abbrev V2 : (c : Dev nD) → (b : Ref sig .tc) → Buf (Elt F) ((c : Thread nD τ).loc b) := fun c b => W2 m ρ c b
/-- At the exit each array of the region holds what the pipeline leaves in it, and every other buffer what it held at
    the entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Core c's buffers after the bias vector main_arg5 has been laid out as the row main_v2 (region 1's entry). -/
abbrev W3 : Dev nD → Valuation τ sig (Elt F) := fun c => StableHlo.after hostOps1 (W2 m ρ c)
/-- The same contents read at the compute core's references: what region 1's data are taken at. -/
abbrev V3 : (c : Dev nD) → (b : Ref sig .tc) → Buf (Elt F) ((c : Thread nD τ).loc b) := fun c b => W3 m ρ c b
/-- The reshape writes main_v2 only. -/
theorem W3_of (c : Dev nD) (b : Ref sig .tc) (hb : b ≠ main_v2) :
    W3 m ρ c (Proc.devRef .tc b) = W2 m ρ c (Proc.devRef .tc b) :=
  StableHlo.reshape_result_ne main_arg5 main_v2 rfl shapeCasts_S64_S1x64 _ _ (W2 m ρ c) hb
/-- and leaves in it the vector's 64 entries as one row. -/
theorem W3_main_v2 (c : Dev nD) :
    W3 m ρ c (Proc.devRef .tc main_v2) = shapeCast S1x64 (W2 m ρ c (Proc.devRef .tc main_arg5)) shapeCasts_S64_S1x64 := by
  simp only [StableHlo.after_cons, StableHlo.after_nil]
  rw [StableHlo.reshape_result]
  try rfl

/-- Core c's buffers when region 1 is left: the region's arrays at what its write-backs have made of them (an input
    array is never written; an output array holds, block by block, what the body stored), every other buffer as it was
    when the region was entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the compute core's references. -/
abbrev V4 : (c : Dev nD) → (b : Ref sig .tc) → Buf (Elt F) ((c : Thread nD τ).loc b) := fun c b => W4 m ρ c b
/-- At the exit each array of the region holds what the pipeline leaves in it, and every other buffer what it held at
    the entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Core c's buffers after the bias vector main_arg7 has been laid out as the row main_v4 (region 2's entry). -/
abbrev W5 : Dev nD → Valuation τ sig (Elt F) := fun c => StableHlo.after hostOps2 (W4 m ρ c)
/-- The same contents read at the compute core's references: what region 2's data are taken at. -/
abbrev V5 : (c : Dev nD) → (b : Ref sig .tc) → Buf (Elt F) ((c : Thread nD τ).loc b) := fun c b => W5 m ρ c b
/-- The reshape writes main_v4 only. -/
theorem W5_of (c : Dev nD) (b : Ref sig .tc) (hb : b ≠ main_v4) :
    W5 m ρ c (Proc.devRef .tc b) = W4 m ρ c (Proc.devRef .tc b) :=
  StableHlo.reshape_result_ne main_arg7 main_v4 rfl shapeCasts_S64_S1x64 _ _ (W4 m ρ c) hb
/-- and leaves in it the vector's 64 entries as one row. -/
theorem W5_main_v4 (c : Dev nD) :
    W5 m ρ c (Proc.devRef .tc main_v4) = shapeCast S1x64 (W4 m ρ c (Proc.devRef .tc main_arg7)) shapeCasts_S64_S1x64 := by
  simp only [StableHlo.after_cons, StableHlo.after_nil]
  rw [StableHlo.reshape_result]
  try rfl

/-- Core c's buffers when region 2 is left: the region's arrays at what its write-backs have made of them (an input
    array is never written; an output array holds, block by block, what the body stored), every other buffer as it was
    when the region was entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the compute core's references. -/
abbrev V6 : (c : Dev nD) → (b : Ref sig .tc) → Buf (Elt F) ((c : Thread nD τ).loc b) := fun c b => W6 m ρ c b
/-- At the exit each array of the region holds what the pipeline leaves in it, and every other buffer what it held at
    the entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No reshape and no region writes an argument array: a region reads it through an input window, which leaves the array as
it was, or does not touch it at all.  So reading the last boundary's contents at an argument walks back, segment by
segment, to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 2).trans (((dat2 (V5 m ρ) c).arrAt_in 2 rfl _).trans (A_eq2 (V5 m ρ) c 2))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- The result array at the end is what region 2's write-backs leave in it. -/
theorem W6_main_v5 (c : Dev nD) : W6 m ρ c (Proc.devRef .tc main_v5) = (dat2 (V5 m ρ) c).arrAt 4 cfg2.N := W6_arr m ρ c 4

/-! ## What each region finds in its input arrays

Region 0 finds the arguments and the first bias row; region 1 finds region 0's two outputs, its weights and the second
bias row; region 2 finds region 0's second output, region 1's output, its weights and the third bias row. -/

theorem V1_main_arg1 (c : Dev nD) : V1 m ρ c main_arg1 = m ((c : Thread nD τ).loc main_arg1) :=
  calc V1 m ρ c main_arg1
    _ = W0 m ρ c (Proc.devRef .tc main_arg1) := W1_of m ρ c main_arg1 (by decide)
    _ = m ((c : Thread nD τ).loc main_arg1) := rfl

theorem V1_main_arg0 (c : Dev nD) : V1 m ρ c main_arg0 = m ((c : Thread nD τ).loc main_arg0) :=
  calc V1 m ρ c main_arg0
    _ = W0 m ρ c (Proc.devRef .tc main_arg0) := W1_of m ρ c main_arg0 (by decide)
    _ = m ((c : Thread nD τ).loc main_arg0) := rfl

theorem V1_main_arg2 (c : Dev nD) : V1 m ρ c main_arg2 = m ((c : Thread nD τ).loc main_arg2) :=
  calc V1 m ρ c main_arg2
    _ = W0 m ρ c (Proc.devRef .tc main_arg2) := W1_of m ρ c main_arg2 (by decide)
    _ = m ((c : Thread nD τ).loc main_arg2) := rfl

theorem V1_main_v0 (c : Dev nD) : V1 m ρ c main_v0 = shapeCast S1x64 (m ((c : Thread nD τ).loc main_arg3)) shapeCasts_S64_S1x64 :=
  calc V1 m ρ c main_v0
    _ = shapeCast S1x64 (W0 m ρ c (Proc.devRef .tc main_arg3)) shapeCasts_S64_S1x64 := W1_main_v0 m ρ c
    _ = shapeCast S1x64 (m ((c : Thread nD τ).loc main_arg3)) shapeCasts_S64_S1x64 := congrArg (fun v => shapeCast S1x64 v shapeCasts_S64_S1x64) ((show _ = m ((c : Thread nD τ).loc main_arg3) from rfl))

theorem V3_main_v1_1 (c : Dev nD) : V3 m ρ c main_v1_1 = (dat0 (V1 m ρ) c).arrAt 5 cfg0.N :=
  calc V3 m ρ c main_v1_1
    _ = W2 m ρ c (Proc.devRef .tc main_v1_1) := W3_of m ρ c main_v1_1 (by decide)
    _ = (dat0 (V1 m ρ) c).arrAt 5 cfg0.N := W2_arr m ρ c 5

theorem V3_main_v1_0 (c : Dev nD) : V3 m ρ c main_v1_0 = (dat0 (V1 m ρ) c).arrAt 4 cfg0.N :=
  calc V3 m ρ c main_v1_0
    _ = W2 m ρ c (Proc.devRef .tc main_v1_0) := W3_of m ρ c main_v1_0 (by decide)
    _ = (dat0 (V1 m ρ) c).arrAt 4 cfg0.N := W2_arr m ρ c 4

theorem V3_main_arg4 (c : Dev nD) : V3 m ρ c main_arg4 = m ((c : Thread nD τ).loc main_arg4) :=
  calc V3 m ρ c main_arg4
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem V3_main_v2 (c : Dev nD) : V3 m ρ c main_v2 = shapeCast S1x64 (m ((c : Thread nD τ).loc main_arg5)) shapeCasts_S64_S1x64 :=
  calc V3 m ρ c main_v2
    _ = shapeCast S1x64 (W2 m ρ c (Proc.devRef .tc main_arg5)) shapeCasts_S64_S1x64 := W3_main_v2 m ρ c
    _ = shapeCast S1x64 (m ((c : Thread nD τ).loc main_arg5)) shapeCasts_S64_S1x64 := congrArg (fun v => shapeCast S1x64 v shapeCasts_S64_S1x64) (((show _ = W1 m ρ c (Proc.devRef .tc main_arg5) from W2_of_ne m ρ c main_arg5 (by decide))).trans (((show _ = W0 m ρ c (Proc.devRef .tc main_arg5) from W1_of m ρ c main_arg5 (by decide))).trans ((show _ = m ((c : Thread nD τ).loc main_arg5) from rfl))))

theorem V5_main_v1_1 (c : Dev nD) : V5 m ρ c main_v1_1 = (dat0 (V1 m ρ) c).arrAt 5 cfg0.N :=
  calc V5 m ρ c main_v1_1
    _ = W4 m ρ c (Proc.devRef .tc main_v1_1) := W5_of m ρ c main_v1_1 (by decide)
    _ = W3 m ρ c (Proc.devRef .tc main_v1_1) := (W4_arr m ρ c 0).trans (((dat1 (V3 m ρ) c).arrAt_in 0 rfl _).trans (A_eq1 (V3 m ρ) c 0))
    _ = W2 m ρ c (Proc.devRef .tc main_v1_1) := W3_of m ρ c main_v1_1 (by decide)
    _ = (dat0 (V1 m ρ) c).arrAt 5 cfg0.N := W2_arr m ρ c 5

theorem V5_main_v3 (c : Dev nD) : V5 m ρ c main_v3 = (dat1 (V3 m ρ) c).arrAt 4 cfg1.N :=
  calc V5 m ρ c main_v3
    _ = W4 m ρ c (Proc.devRef .tc main_v3) := W5_of m ρ c main_v3 (by decide)
    _ = (dat1 (V3 m ρ) c).arrAt 4 cfg1.N := W4_arr m ρ c 4

theorem V5_main_arg6 (c : Dev nD) : V5 m ρ c main_arg6 = m ((c : Thread nD τ).loc main_arg6) :=
  calc V5 m ρ c main_arg6
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem V5_main_v4 (c : Dev nD) : V5 m ρ c main_v4 = shapeCast S1x64 (m ((c : Thread nD τ).loc main_arg7)) shapeCasts_S64_S1x64 :=
  calc V5 m ρ c main_v4
    _ = shapeCast S1x64 (W4 m ρ c (Proc.devRef .tc main_arg7)) shapeCasts_S64_S1x64 := W5_main_v4 m ρ c
    _ = shapeCast S1x64 (m ((c : Thread nD τ).loc main_arg7)) shapeCasts_S64_S1x64 := congrArg (fun v => shapeCast S1x64 v shapeCasts_S64_S1x64) (((show _ = W3 m ρ c (Proc.devRef .tc main_arg7) from W4_of_ne m ρ c main_arg7 (by decide))).trans (((show _ = W2 m ρ c (Proc.devRef .tc main_arg7) from W3_of m ρ c main_arg7 (by decide))).trans (((show _ = W1 m ρ c (Proc.devRef .tc main_arg7) from W2_of_ne m ρ c main_arg7 (by decide))).trans (((show _ = W0 m ρ c (Proc.devRef .tc main_arg7) from W1_of m ρ c main_arg7 (by decide))).trans ((show _ = m ((c : Thread nD τ).loc main_arg7) from rfl))))))

/-! ## The pipelines' data and the state a core carries between segments -/

/-- No pipeline reads a prefetched table. -/
abbrev adm : (p : Fin 3) → (pcfgs (F := F) p).Adm := fun p => (cfgs p).toPCfg_adm
/-- Every pipeline's data, each taken at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and the record that it owes nothing. -/
abbrev R (c : Dev nD) : sProp 𝕄 := iprop((∃ r, prngReg c r) ∗ ∃ W, owes (c : Thread nD τ) (0 : CellTallies nD τ sig Unit) W)
/-- A reshape as a segment: from every unscoped buffer at W it runs to the same buffers at the contents after it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reshape allocates nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the compute core is among those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debt record: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the carried state: entered with every unscoped buffer at W1, left with them at W2.  At the
    entry the region's arrays are taken out of the unscoped buffers and the rest set aside; the generator register goes
    into the pipeline's invariant and comes back out of it; at the exit the arrays, now at what the pipeline left, are
    put back beside the rest. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the carried state: entered with every unscoped buffer at W3, left with them at W4.  At the
    entry the region's arrays are taken out of the unscoped buffers and the rest set aside; the generator register goes
    into the pipeline's invariant and comes back out of it; at the exit the arrays, now at what the pipeline left, are
    put back beside the rest. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the carried state: entered with every unscoped buffer at W5, left with them at W6.  At the
    entry the region's arrays are taken out of the unscoped buffers and the rest set aside; the generator register goes
    into the pipeline's invariant and comes back out of it; at the exit the arrays, now at what the pipeline left, are
    put back beside the rest. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

/-- The segments in order: each reshape from its boundary's contents, each region after it. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2) ]

/-- The program is the run of those segments. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) (c : Dev nD) :
    main (F := F) c = Pipeline.Seg.run (segs m ρ hb0 hb1 hb2) := (main_chain c).trans (by chain_rfl)

set_option backward.isDefEq.respectTransparency.types false in
/-- From any memory with all counters at zero, every fair execution of the program on the compute cores ends, without
    fault, and in every final state each unscoped buffer of core c holds the last boundary's contents. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- In particular the program runs to its end and every argument array ends as launched. -/
theorem frame_of_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (run_all m ρ hb0 hb1 hb2)

end Cert.Kernel.Hand

end
-- ==== Proof.LibWholeStore.lean ====
/-
  A store through the rectangle that is the whole shape at offset zero, and a load through it.

  Such a store overwrites every entry, so whatever a buffer held before, reading it afterwards gives the stored
  value; and a load of a buffer through that rectangle gives the buffer's contents.
-/
import Idealize.ShloMosaic.Lib.Pipeline.FrameBody
import Idealize.ShloMosaic.Lib.Pipeline.Value

noncomputable section

namespace Idealize.ShloMosaic.WholeStore

open Idealize.ShloMosaic

variable {Val : EltTy → Type} [∀ e, Nonempty (Val e)] {S : Shape} {e : EltTy}

/-- The whole-shape rectangle at offset zero holds every index. -/
theorem cover {off : Fin S.rank → Nat} (h : off = fun _ => 0) (inb : ∀ a, off a + S.size a ≤ S.size a)
    (w : S.Idx → Val e) (y : S.Idx) :
    ∃ p ∈ ([⟨Rect.unit off S.size inb, w⟩] : List (View.Piece Val S e)), y ∈ p.1.set := by
  subst h
  exact ⟨_, List.mem_singleton_self _, by show y ∈ (Rect.whole S).set; rw [Rect.set_whole]; exact Finset.mem_univ y⟩

/-- After one store of w through the whole-shape rectangle, the buffer reads as w, whatever it held. -/
theorem read_writes {sig : RefSig} {κ : Kind} {sp : Space} (v : View sig κ sp S e) (f : v.ty.Contents Val)
    {off : Fin S.rank → Nat} (h : off = fun _ => 0) (inb : ∀ a, off a + S.size a ≤ S.size a) (w : S.Idx → Val e) :
    v.read Val (v.writes Val f [⟨Rect.unit off S.size inb, w⟩]) = w :=
  (View.read_writes_eq_canon v f _ (cover h inb w)).trans (View.canon_unit_zero h inb w)

/-- A load through the whole-shape rectangle reads the buffer's contents. -/
theorem readAt {sig : RefSig} {κ : Kind} {sp : Space} (v : View sig κ sp S e) (f : v.ty.Contents Val)
    {off : Fin S.rank → Nat} (h : off = fun _ => 0) (inb : ∀ a, off a + S.size a ≤ S.size a) :
    v.readAt Val (Rect.unit off S.size inb).toLoadRect f = v.read Val f :=
  (View.readAt_eq_ld v f _).trans (View.ld_unit_zero h inb _)

/-- The offset of a rank-2 whole-shape rectangle is the zero function. -/
theorem zero2 : (![0, 0] : Fin 2 → Nat) = fun _ => 0 := by
  funext a; match a with | ⟨0, _⟩ => rfl | ⟨1, _⟩ => rfl

end Idealize.ShloMosaic.WholeStore

end
-- ==== Proof.WR0Body.lean ====
/-
  Region 0's body: what one call of the layer-1 kernel does to its staging buffers and its scratch buffer.

  At the grid's first point the body projects the features (x · W) into the scratch buffer, then — as at every point —
  copies the adjacency block, multiplies it with the scratch buffer's contents, adds the bias row and applies the
  activation. Every load and store goes through the whole-shape rectangle of its buffer, so each buffer ends holding
  the stored value and each load reads the buffer's contents. From these two triples follows what the pipeline's
  launch rule asks of the body at every point.
-/
import proofs.«154258_g15032385536406_cont_week2b_1259_11_alg».proof.Proof.WR0Data
import proofs.«154258_g15032385536406_cont_week2b_1259_11_alg».proof.Proof.LibWholeStore
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later point: the scratch buffer holds u and is only read. -/
theorem kernel0_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S400x10000 .bf16) (harg6 : arg6.IsWhole) (arg7 : Memref sig .tc .vmem S10000x64 .bf16) (harg7 : arg7.IsWhole)
    (x1 : Vec F S400x10000 .f32) (x2 : Vec F S10000x128 .f32) (x3 : Vec F S128x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ owns (c : Thread nD τ) arg7 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k0_pay3 x1 u x4) ∗ owns (c : Thread nD τ) arg6 fullShare (k0_pay2 x1) ∗ owns (c : Thread nD τ) arg7 fullShare u) -∗ K ⟨⟩))
      ⊢ wp frame (wpE (defs₀ (F := F)) Variants.none c none) E (cc0__l1_kernel i arg1 harg1 arg2 harg2 arg3 harg3 arg4 harg4 arg5 harg5 arg6 harg6 arg7 harg7) K := by
  simp only [cc0__l1_kernel_eq_skeleton]; unfold cc0__l1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf1; subst hf2; subst hf3; subst hf4; subst hf7
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  isplitl [H6]
  · iexists _; isplitr
    swap; · iexact H6
    ipureintro
    rw [WholeStore.read_writes _ _ zero2, WholeStore.readAt _ _ zero2]
  iexists f7; isplitr; · ipureintro; rfl
  iexact H7

set_option maxHeartbeats 1000000 in
/-- The first point: the scratch buffer, at anything, is overwritten with the projected features and then read. -/
theorem kernel0_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S400x10000 .bf16) (harg6 : arg6.IsWhole) (arg7 : Memref sig .tc .vmem S10000x64 .bf16) (harg7 : arg7.IsWhole)
    (x1 : Vec F S400x10000 .f32) (x2 : Vec F S10000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k0_pay3 x1 (k0_pay1 x2 x3) x4) ∗ owns (c : Thread nD τ) arg6 fullShare (k0_pay2 x1) ∗ owns (c : Thread nD τ) arg7 fullShare (k0_pay1 x2 x3)) -∗ K ⟨⟩))
      ⊢ wp frame (wpE (defs₀ (F := F)) Variants.none c none) E (cc0__l1_kernel i arg1 harg1 arg2 harg2 arg3 harg3 arg4 harg4 arg5 harg5 arg6 harg6 arg7 harg7) K := by
  simp only [cc0__l1_kernel_eq_skeleton]; unfold cc0__l1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  isplitl [H6]
  · iexists _; isplitr
    swap; · iexact H6
    ipureintro
    rw [WholeStore.read_writes _ _ zero2, WholeStore.readAt _ _ zero2]
  iexists _; isplitr
  swap; · iexact H7
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the scratch buffer is at anything
    and ends at the projected features, at a later point it holds them and is handed back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl, Phi0_succ, Phi0_castSucc,
    after0_0, after0_1, after0_2, after0_3, after0_4, after0_5]
  by_cases hz : t.val = 0
  · have ht : t = t0_0 := Fin.ext hz
    subst ht
    rw [show PhiS0 V c (t0_0).val = Pipeline.ΦA spec0 c from rfl, PhiA0_eq]
    unfold U0
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply (kernel0_first c Set.univ (grid0.coords t0_0) ((hcond0 t0_0).mpr rfl) _ _ _ _ _ _ _ _ _ _ _ _ _ _
      (iblk0 V c 0 t0_0) (iblk0 V c 1 t0_0) (iblk0 V c 2 t0_0) (iblk0 V c 3 t0_0) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS0_pos V c _ hz]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply (kernel0_later c Set.univ (grid0.coords t) (fun h => hz ((hcond0 t).mp h)) _ _ _ _ _ _ _ _ _ _ _ _ _ _
      (iblk0 V c 0 t) (iblk0 V c 1 t) (iblk0 V c 2 t) (iblk0 V c 3 t) (U0 V c) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    iexact H5

/-- The launch rule's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WR1Body.lean ====
/-
  Region 1's body: what one call of the layer-2 kernel does to its staging buffers and its scratch buffer.

  At the grid's first point the body projects the previous layer's features (h · W) into the scratch buffer, then — as at every
  point — multiplies the adjacency block with the scratch buffer's contents, adds the bias row and applies the activation. Every load and store goes through the whole-shape rectangle of its buffer, so each buffer ends holding
  the stored value and each load reads the buffer's contents. From these two triples follows what the pipeline's
  launch rule asks of the body at every point.
-/
import proofs.«154258_g15032385536406_cont_week2b_1259_11_alg».proof.Proof.WR1Data
import proofs.«154258_g15032385536406_cont_week2b_1259_11_alg».proof.Proof.LibWholeStore
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

set_option maxHeartbeats 1000000 in
/-- A later point: the scratch buffer holds u and is only read. -/
theorem kernel1_later (c : Dev nD) (E : Set ℕ) (i : grid1.Coords) (hc : ¬ cond1 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k1_pay2 x1 u x4) ∗ owns (c : Thread nD τ) arg6 fullShare u) -∗ K ⟨⟩))
      ⊢ wp frame (wpE (defs₀ (F := F)) Variants.none c none) E (cc1__lk_kernel i arg1 harg1 arg2 harg2 arg3 harg3 arg4 harg4 arg5 harg5 arg6 harg6) K := by
  simp only [cc1__lk_kernel_eq_skeleton]; unfold cc1__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  iexists f6; isplitr; · ipureintro; rfl
  iexact H6

set_option maxHeartbeats 1000000 in
/-- The first point: the scratch buffer, at anything, is overwritten with the projected features and then read. -/
theorem kernel1_first (c : Dev nD) (E : Set ℕ) (i : grid1.Coords) (hc : cond1 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k1_pay2 x1 (k1_pay1 x2 x3) x4) ∗ owns (c : Thread nD τ) arg6 fullShare (k1_pay1 x2 x3)) -∗ K ⟨⟩))
      ⊢ wp frame (wpE (defs₀ (F := F)) Variants.none c none) E (cc1__lk_kernel i arg1 harg1 arg2 harg2 arg3 harg3 arg4 harg4 arg5 harg5 arg6 harg6) K := by
  simp only [cc1__lk_kernel_eq_skeleton]; unfold cc1__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  iexists _; isplitr
  swap; · iexact H6
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the scratch buffer is at anything
    and ends at the projected features, at a later point it holds them and is handed back as it was. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, Phi1_succ, Phi1_castSucc,
    after1_0, after1_1, after1_2, after1_3, after1_4]
  by_cases hz : t.val = 0
  · have ht : t = t0_1 := Fin.ext hz
    subst ht
    rw [show PhiS1 V c (t0_1).val = Pipeline.ΦA spec1 c from rfl, PhiA1_eq]
    unfold U1
    iintro ⟨⟨⟨HS, HB⟩, Hg⟩, Ho, ⟨%d0, H0⟩, ⟨%d1, H1⟩, ⟨%d2, H2⟩, ⟨%d3, H3⟩, ⟨%d4, H4⟩⟩
    iapply (kernel1_first c Set.univ (grid1.coords t0_1) ((hcond1 t0_1).mpr rfl) _ _ _ _ _ _ _ _ _ _ _ _
      (iblk1 V c 0 t0_1) (iblk1 V c 1 t0_1) (iblk1 V c 2 t0_1) (iblk1 V c 3 t0_1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4
  · rw [PhiS1_pos V c _ hz]
    iintro ⟨⟨⟨HS, HB⟩, Hg⟩, Ho, ⟨%d0, H0⟩, ⟨%d1, H1⟩, ⟨%d2, H2⟩, ⟨%d3, H3⟩, ⟨%d4, H4⟩⟩
    iapply (kernel1_later c Set.univ (grid1.coords t) (fun h => hz ((hcond1 t).mp h)) _ _ _ _ _ _ _ _ _ _ _ _
      (iblk1 V c 0 t) (iblk1 V c 1 t) (iblk1 V c 2 t) (iblk1 V c 3 t) (U1 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The launch rule's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WR2Body.lean ====
/-
  Region 2's body: what one call of the layer-3 kernel does to its staging buffers and its scratch buffer.

  At the grid's first point the body projects the previous layer's features (h · W) into the scratch buffer, then — as at every
  point — multiplies the adjacency block with the scratch buffer's contents and adds the bias row. Every load and store goes through the whole-shape rectangle of its buffer, so each buffer ends holding
  the stored value and each load reads the buffer's contents. From these two triples follows what the pipeline's
  launch rule asks of the body at every point.
-/
import proofs.«154258_g15032385536406_cont_week2b_1259_11_alg».proof.Proof.WR2Data
import proofs.«154258_g15032385536406_cont_week2b_1259_11_alg».proof.Proof.LibWholeStore
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

set_option maxHeartbeats 1000000 in
/-- A later point: the scratch buffer holds u and is only read. -/
theorem kernel2_later (c : Dev nD) (E : Set ℕ) (i : grid2.Coords) (hc : ¬ cond2 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k2_pay2 x1 u x4) ∗ owns (c : Thread nD τ) arg6 fullShare u) -∗ K ⟨⟩))
      ⊢ wp frame (wpE (defs₀ (F := F)) Variants.none c none) E (cc2__lk_kernel i arg1 harg1 arg2 harg2 arg3 harg3 arg4 harg4 arg5 harg5 arg6 harg6) K := by
  simp only [cc2__lk_kernel_eq_skeleton]; unfold cc2__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  iexists f6; isplitr; · ipureintro; rfl
  iexact H6

set_option maxHeartbeats 1000000 in
/-- The first point: the scratch buffer, at anything, is overwritten with the projected features and then read. -/
theorem kernel2_first (c : Dev nD) (E : Set ℕ) (i : grid2.Coords) (hc : cond2 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k2_pay2 x1 (k2_pay1 x2 x3) x4) ∗ owns (c : Thread nD τ) arg6 fullShare (k2_pay1 x2 x3)) -∗ K ⟨⟩))
      ⊢ wp frame (wpE (defs₀ (F := F)) Variants.none c none) E (cc2__lk_kernel i arg1 harg1 arg2 harg2 arg3 harg3 arg4 harg4 arg5 harg5 arg6 harg6) K := by
  simp only [cc2__lk_kernel_eq_skeleton]; unfold cc2__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  iexists _; isplitr
  swap; · iexact H6
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
/-- The body at any point: the inputs' buffers hold their blocks; at the first point the scratch buffer is at anything
    and ends at the projected features, at a later point it holds them and is handed back as it was. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl, Phi2_succ, Phi2_castSucc,
    after2_0, after2_1, after2_2, after2_3, after2_4]
  by_cases hz : t.val = 0
  · have ht : t = t0_2 := Fin.ext hz
    subst ht
    rw [show PhiS2 V c (t0_2).val = Pipeline.ΦA spec2 c from rfl, PhiA2_eq]
    unfold U2
    iintro ⟨⟨⟨HS, HB⟩, Hg⟩, Ho, ⟨%d0, H0⟩, ⟨%d1, H1⟩, ⟨%d2, H2⟩, ⟨%d3, H3⟩, ⟨%d4, H4⟩⟩
    iapply (kernel2_first c Set.univ (grid2.coords t0_2) ((hcond2 t0_2).mpr rfl) _ _ _ _ _ _ _ _ _ _ _ _
      (iblk2 V c 0 t0_2) (iblk2 V c 1 t0_2) (iblk2 V c 2 t0_2) (iblk2 V c 3 t0_2) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4
  · rw [PhiS2_pos V c _ hz]
    iintro ⟨⟨⟨HS, HB⟩, Hg⟩, Ho, ⟨%d0, H0⟩, ⟨%d1, H1⟩, ⟨%d2, H2⟩, ⟨%d3, H3⟩, ⟨%d4, H4⟩⟩
    iapply (kernel2_later c Set.univ (grid2.coords t) (fun h => hz ((hcond2 t).mp h)) _ _ _ _ _ _ _ _ _ _ _ _
      (iblk2 V c 0 t) (iblk2 V c 1 t) (iblk2 V c 2 t) (iblk2 V c 3 t) (U2 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The launch rule's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.R0Body.lean ====
/-
  Region 0's body: what one call of the layer-1 kernel does to its staging buffers and its scratch buffer.

  At the grid's first point the body projects the features (x · W) into the scratch buffer, then — as at every point —
  copies the adjacency block, multiplies it with the scratch buffer's contents, adds the bias row and applies the
  activation. Every load and store goes through the whole-shape rectangle of its buffer, so each buffer ends holding
  the stored value and each load reads the buffer's contents. From these two triples follows what the pipeline's
  launch rule asks of the body at every point.
-/
import proofs.«154258_g15032385536406_cont_week2b_1259_11_alg».proof.Proof.R0Data
import proofs.«154258_g15032385536406_cont_week2b_1259_11_alg».proof.Proof.LibWholeStore
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later point: the scratch buffer holds u and is only read. -/
theorem kernel0_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S400x10000 .bf16) (harg6 : arg6.IsWhole) (arg7 : Memref sig .tc .vmem S10000x64 .bf16) (harg7 : arg7.IsWhole)
    (x1 : Vec F S400x10000 .f32) (x2 : Vec F S10000x128 .f32) (x3 : Vec F S128x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ owns (c : Thread nD τ) arg7 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k0_pay3 x1 u x4) ∗ owns (c : Thread nD τ) arg6 fullShare (k0_pay2 x1) ∗ owns (c : Thread nD τ) arg7 fullShare u) -∗ K ⟨⟩))
      ⊢ wp frame (wpE (defs₀ (F := F)) Variants.none c none) E (cc0__l1_kernel i arg1 harg1 arg2 harg2 arg3 harg3 arg4 harg4 arg5 harg5 arg6 harg6 arg7 harg7) K := by
  simp only [cc0__l1_kernel_eq_skeleton]; unfold cc0__l1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf1; subst hf2; subst hf3; subst hf4; subst hf7
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  isplitl [H6]
  · iexists _; isplitr
    swap; · iexact H6
    ipureintro
    rw [WholeStore.read_writes _ _ zero2, WholeStore.readAt _ _ zero2]
  iexists f7; isplitr; · ipureintro; rfl
  iexact H7

set_option maxHeartbeats 1000000 in
/-- The first point: the scratch buffer, at anything, is overwritten with the projected features and then read. -/
theorem kernel0_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S400x10000 .bf16) (harg6 : arg6.IsWhole) (arg7 : Memref sig .tc .vmem S10000x64 .bf16) (harg7 : arg7.IsWhole)
    (x1 : Vec F S400x10000 .f32) (x2 : Vec F S10000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k0_pay3 x1 (k0_pay1 x2 x3) x4) ∗ owns (c : Thread nD τ) arg6 fullShare (k0_pay2 x1) ∗ owns (c : Thread nD τ) arg7 fullShare (k0_pay1 x2 x3)) -∗ K ⟨⟩))
      ⊢ wp frame (wpE (defs₀ (F := F)) Variants.none c none) E (cc0__l1_kernel i arg1 harg1 arg2 harg2 arg3 harg3 arg4 harg4 arg5 harg5 arg6 harg6 arg7 harg7) K := by
  simp only [cc0__l1_kernel_eq_skeleton]; unfold cc0__l1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  isplitl [H6]
  · iexists _; isplitr
    swap; · iexact H6
    ipureintro
    rw [WholeStore.read_writes _ _ zero2, WholeStore.readAt _ _ zero2]
  iexists _; isplitr
  swap; · iexact H7
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the scratch buffer is at anything
    and ends at the projected features, at a later point it holds them and is handed back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl, Phi0_succ, Phi0_castSucc,
    after0_0, after0_1, after0_2, after0_3, after0_4, after0_5]
  by_cases hz : t.val = 0
  · have ht : t = t0_0 := Fin.ext hz
    subst ht
    rw [show PhiS0 V c (t0_0).val = Pipeline.ΦA spec0 c from rfl, PhiA0_eq]
    unfold U0
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply (kernel0_first c Set.univ (grid0.coords t0_0) ((hcond0 t0_0).mpr rfl) _ _ _ _ _ _ _ _ _ _ _ _ _ _
      (iblk0 V c 0 t0_0) (iblk0 V c 1 t0_0) (iblk0 V c 2 t0_0) (iblk0 V c 3 t0_0) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS0_pos V c _ hz]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply (kernel0_later c Set.univ (grid0.coords t) (fun h => hz ((hcond0 t).mp h)) _ _ _ _ _ _ _ _ _ _ _ _ _ _
      (iblk0 V c 0 t) (iblk0 V c 1 t) (iblk0 V c 2 t) (iblk0 V c 3 t) (U0 V c) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    iexact H5

/-- The launch rule's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Body.lean ====
/-
  Region 1's body: what one call of the layer-2 kernel does to its staging buffers and its scratch buffer.

  At the grid's first point the body projects the previous layer's features (h · W) into the scratch buffer, then — as at every
  point — multiplies the adjacency block with the scratch buffer's contents, adds the bias row and applies the activation. Every load and store goes through the whole-shape rectangle of its buffer, so each buffer ends holding
  the stored value and each load reads the buffer's contents. From these two triples follows what the pipeline's
  launch rule asks of the body at every point.
-/
import proofs.«154258_g15032385536406_cont_week2b_1259_11_alg».proof.Proof.R1Data
import proofs.«154258_g15032385536406_cont_week2b_1259_11_alg».proof.Proof.LibWholeStore
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

set_option maxHeartbeats 1000000 in
/-- A later point: the scratch buffer holds u and is only read. -/
theorem kernel1_later (c : Dev nD) (E : Set ℕ) (i : grid1.Coords) (hc : ¬ cond1 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k1_pay2 x1 u x4) ∗ owns (c : Thread nD τ) arg6 fullShare u) -∗ K ⟨⟩))
      ⊢ wp frame (wpE (defs₀ (F := F)) Variants.none c none) E (cc1__lk_kernel i arg1 harg1 arg2 harg2 arg3 harg3 arg4 harg4 arg5 harg5 arg6 harg6) K := by
  simp only [cc1__lk_kernel_eq_skeleton]; unfold cc1__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  iexists f6; isplitr; · ipureintro; rfl
  iexact H6

set_option maxHeartbeats 1000000 in
/-- The first point: the scratch buffer, at anything, is overwritten with the projected features and then read. -/
theorem kernel1_first (c : Dev nD) (E : Set ℕ) (i : grid1.Coords) (hc : cond1 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k1_pay2 x1 (k1_pay1 x2 x3) x4) ∗ owns (c : Thread nD τ) arg6 fullShare (k1_pay1 x2 x3)) -∗ K ⟨⟩))
      ⊢ wp frame (wpE (defs₀ (F := F)) Variants.none c none) E (cc1__lk_kernel i arg1 harg1 arg2 harg2 arg3 harg3 arg4 harg4 arg5 harg5 arg6 harg6) K := by
  simp only [cc1__lk_kernel_eq_skeleton]; unfold cc1__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  iexists _; isplitr
  swap; · iexact H6
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the scratch buffer is at anything
    and ends at the projected features, at a later point it holds them and is handed back as it was. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, Phi1_succ, Phi1_castSucc,
    after1_0, after1_1, after1_2, after1_3, after1_4]
  by_cases hz : t.val = 0
  · have ht : t = t0_1 := Fin.ext hz
    subst ht
    rw [show PhiS1 V c (t0_1).val = Pipeline.ΦA spec1 c from rfl, PhiA1_eq]
    unfold U1
    iintro ⟨⟨⟨HS, HB⟩, Hg⟩, Ho, ⟨%d0, H0⟩, ⟨%d1, H1⟩, ⟨%d2, H2⟩, ⟨%d3, H3⟩, ⟨%d4, H4⟩⟩
    iapply (kernel1_first c Set.univ (grid1.coords t0_1) ((hcond1 t0_1).mpr rfl) _ _ _ _ _ _ _ _ _ _ _ _
      (iblk1 V c 0 t0_1) (iblk1 V c 1 t0_1) (iblk1 V c 2 t0_1) (iblk1 V c 3 t0_1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4
  · rw [PhiS1_pos V c _ hz]
    iintro ⟨⟨⟨HS, HB⟩, Hg⟩, Ho, ⟨%d0, H0⟩, ⟨%d1, H1⟩, ⟨%d2, H2⟩, ⟨%d3, H3⟩, ⟨%d4, H4⟩⟩
    iapply (kernel1_later c Set.univ (grid1.coords t) (fun h => hz ((hcond1 t).mp h)) _ _ _ _ _ _ _ _ _ _ _ _
      (iblk1 V c 0 t) (iblk1 V c 1 t) (iblk1 V c 2 t) (iblk1 V c 3 t) (U1 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The launch rule's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Body.lean ====
/-
  Region 2's body: what one call of the layer-3 kernel does to its staging buffers and its scratch buffer.

  At the grid's first point the body projects the previous layer's features (h · W) into the scratch buffer, then — as at every
  point — multiplies the adjacency block with the scratch buffer's contents and adds the bias row. Every load and store goes through the whole-shape rectangle of its buffer, so each buffer ends holding
  the stored value and each load reads the buffer's contents. From these two triples follows what the pipeline's
  launch rule asks of the body at every point.
-/
import proofs.«154258_g15032385536406_cont_week2b_1259_11_alg».proof.Proof.R2Data
import proofs.«154258_g15032385536406_cont_week2b_1259_11_alg».proof.Proof.LibWholeStore
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore (zero2)

/-- The body's branch condition, from the grid coordinate: the point is the first. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

set_option maxHeartbeats 1000000 in
/-- A later point: the scratch buffer holds u and is only read. -/
theorem kernel2_later (c : Dev nD) (E : Set ℕ) (i : grid2.Coords) (hc : ¬ cond2 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (u : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare u
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k2_pay2 x1 u x4) ∗ owns (c : Thread nD τ) arg6 fullShare u) -∗ K ⟨⟩))
      ⊢ wp frame (wpE (defs₀ (F := F)) Variants.none c none) E (cc2__lk_kernel i arg1 harg1 arg2 harg2 arg3 harg3 arg4 harg4 arg5 harg5 arg6 harg6) K := by
  simp only [cc2__lk_kernel_eq_skeleton]; unfold cc2__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [WholeStore.read_writes _ _ zero2, WholeStore.readAt _ _ zero2, WholeStore.readAt _ _ zero2, WholeStore.readAt _ _ zero2]
  iexists f6; isplitr; · ipureintro; rfl
  iexact H6

set_option maxHeartbeats 1000000 in
/-- The first point: the scratch buffer, at anything, is overwritten with the projected features and then read. -/
theorem kernel2_first (c : Dev nD) (E : Set ℕ) (i : grid2.Coords) (hc : cond2 i)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x1 : Vec F S1000x10000 .bf16) (x2 : Vec F S10000x64 .f32) (x3 : Vec F S64x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k2_pay2 x1 (k2_pay1 x2 x3) x4) ∗ owns (c : Thread nD τ) arg6 fullShare (k2_pay1 x2 x3)) -∗ K ⟨⟩))
      ⊢ wp frame (wpE (defs₀ (F := F)) Variants.none c none) E (cc2__lk_kernel i arg1 harg1 arg2 harg2 arg3 harg3 arg4 harg4 arg5 harg5 arg6 harg6) K := by
  simp only [cc2__lk_kernel_eq_skeleton]; unfold cc2__lk_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rw [WholeStore.read_writes _ _ zero2, View.readCov_unit_zero _ zero2, WholeStore.readAt _ _ zero2, WholeStore.readAt _ _ zero2, WholeStore.readAt _ _ zero2, WholeStore.readAt _ _ zero2]
  iexists _; isplitr
  swap; · iexact H6
  ipureintro
  sl_unfold_run_names
  rw [WholeStore.read_writes _ _ zero2, WholeStore.readAt _ _ zero2, WholeStore.readAt _ _ zero2]

variable (V : (c : Dev nD) → (b : Ref sig .tc) → Buf (Elt F) ((c : Thread nD τ).loc b))

/-! ## The obligation at a point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
/-- The body at any point: the inputs' buffers hold their blocks; at the first point the scratch buffer is at anything
    and ends at the projected features, at a later point it holds them and is handed back as it was. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl, Phi2_succ, Phi2_castSucc,
    after2_0, after2_1, after2_2, after2_3, after2_4]
  by_cases hz : t.val = 0
  · have ht : t = t0_2 := Fin.ext hz
    subst ht
    rw [show PhiS2 V c (t0_2).val = Pipeline.ΦA spec2 c from rfl, PhiA2_eq]
    unfold U2
    iintro ⟨⟨⟨HS, HB⟩, Hg⟩, Ho, ⟨%d0, H0⟩, ⟨%d1, H1⟩, ⟨%d2, H2⟩, ⟨%d3, H3⟩, ⟨%d4, H4⟩⟩
    iapply (kernel2_first c Set.univ (grid2.coords t0_2) ((hcond2 t0_2).mpr rfl) _ _ _ _ _ _ _ _ _ _ _ _
      (iblk2 V c 0 t0_2) (iblk2 V c 1 t0_2) (iblk2 V c 2 t0_2) (iblk2 V c 3 t0_2) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4
  · rw [PhiS2_pos V c _ hz]
    iintro ⟨⟨⟨HS, HB⟩, Hg⟩, Ho, ⟨%d0, H0⟩, ⟨%d1, H1⟩, ⟨%d2, H2⟩, ⟨%d3, H3⟩, ⟨%d4, H4⟩⟩
    iapply (kernel2_later c Set.univ (grid2.coords t) (fun h => hz ((hcond2 t).mp h)) _ _ _ _ _ _ _ _ _ _ _ _
      (iblk2 V c 0 t) (iblk2 V c 1 t) (iblk2 V c 2 t) (iblk2 V c 3 t) (U2 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The launch rule's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Spec.lean ====
/-
  The function both programs compute, as one term over whole arrays at the exact instance: a three-layer graph
  convolution  h ↦ act (adj · (h · W) + b)  with  act a = a  where  a ≥ 0  and  c · a  elsewhere (c the f32 nearest 1/100),
  the last layer without act.  Each product is the host's plain contraction, the bias a row repeated down the rows.
-/
import proofs.«154258_g15032385536406_cont_week2b_1259_11_alg».proof.Proof.Gen.ReferenceIdeal
import Idealize.ShloMosaic.PureOps.Ideal

noncomputable section

namespace Cert.Spec

open Idealize.ShloMosaic Cert.ReferenceIdeal Cert.ReferenceIdeal.Facts₀

/-- act, entry by entry: keep a nonnegative entry, scale a negative one by the constant. -/
def act (a : FVec Ideal S10000x64 .f32) : FVec Ideal S10000x64 .f32 :=
  select (cmpf .oge a (broadcastInDim S10000x64 ![] bcast_S_S10000x64 (constant (F := Ideal) S_ .f32 0x00000000#32)))
    a (mulf (broadcastInDim S10000x64 ![] bcast_S_S10000x64 (id (constant (F := Ideal) S_ .f32 0x3C23D70A#32))) a)

/-- A bias vector laid as a row and repeated down the 10000 rows. -/
def biasRows (b : FVec Ideal S64 .f32) : FVec Ideal S10000x64 .f32 :=
  broadcastInDim S10000x64 ![0, 1] bcast_S1x64_S10000x64_0_1 (broadcastInDim S1x64 ![1] bcast_S64_S1x64_1 b)

/-- adj · u + b for a projected feature matrix u. -/
def aggregate (adj : FVec Ideal S10000x10000 .f32) (u : FVec Ideal S10000x64 .f32) (b : FVec Ideal S64 .f32) :
    FVec Ideal S10000x64 .f32 :=
  addf (Host.dotGeneral (F := Ideal) dot_S10000x10000_S10000x64_S10000x64_1_0_0_1_n_n none adj u) (biasRows b)

/-- The first projection x · W1 (128 input features). -/
def project1 (x : FVec Ideal S10000x128 .f32) (W : FVec Ideal S128x64 .f32) : FVec Ideal S10000x64 .f32 :=
  Host.dotGeneral (F := Ideal) dot_S10000x128_S128x64_S10000x64_1_0_0_1_n_n none x W

/-- A later projection h · W (64 features). -/
def projectK (h : FVec Ideal S10000x64 .f32) (W : FVec Ideal S64x64 .f32) : FVec Ideal S10000x64 .f32 :=
  Host.dotGeneral (F := Ideal) dot_S10000x64_S64x64_S10000x64_1_0_0_1_n_n none h W

/-- The three layers composed. -/
def gcn (x : FVec Ideal S10000x128 .f32) (adj : FVec Ideal S10000x10000 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32) :
    FVec Ideal S10000x64 .f32 :=
  aggregate adj (projectK (act (aggregate adj (projectK (act (aggregate adj (project1 x W1) b1)) W2) b2)) W3) b3

end Cert.Spec

end
-- ==== Proof.Payloads.lean ====
/-
  The arithmetic of the three layers' blocks, entry by entry, at the exact instance.

  Each layer computes  h ↦ act (adj · (h · W) + b).  A block of R consecutive rows of the result needs only the same R
  rows of adj: the entry (i, j) of the block is  ∑ k, adj (o + i, k) · u (k, j) + b j  (o the block's first row,
  u = h · W the projected features), passed through act (keep a nonnegative entry, scale a negative one by a
  constant) on every layer but the last.  A change of float format is the identity on extended reals, and a matrix
  product into the zero accumulator is the same sum over the contracted coordinate as the host's contraction, so no
  law beyond re-indexing a finite sum is used: nothing is re-associated and no finiteness is needed.
-/
import proofs.«154258_g15032385536406_cont_week2b_1259_11_alg».proof.Proof.Gen.KernelIdeal.Skeleton
import proofs.«154258_g15032385536406_cont_week2b_1259_11_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic ValueIdx Cert.KernelIdeal

/-- The dimension numbers of a plain product, rows × contraction by contraction × columns, over any proof of
    their side conditions. -/
abbrev plainDims (R K C : ℕ)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section Plain
variable {R K C : ℕ} (wf : DotDims.WF ⟨2, ![R, K]⟩ ⟨2, ![K, C]⟩ ⟨2, ![R, C]⟩ [1] [0] [0] [1] [] [])

/-! The operand indices of a plain product at output index (row, column) and contraction index q: the left operand is
    read at (row, q), the right at (q, column). One lemma per coordinate. -/

theorem lhs_row (o : (⟨2, ![R, C]⟩ : Shape).Idx) (q : (plainDims R K C wf).contr.Idx) :
    ((plainDims R K C wf).lhsIdx o q 0).val = (o 0).val := by
  unfold DotDims.lhsIdx
  rw [dif_neg (show ¬(0 : Fin 2) ∈ (plainDims R K C wf).lhsBatch from List.not_mem_nil),
    dif_pos (show (0 : Fin 2) ∈ (plainDims R K C wf).lhsNonContracting from List.mem_singleton.mpr rfl)]
  rfl

theorem lhs_contr (o : (⟨2, ![R, C]⟩ : Shape).Idx) (q : (plainDims R K C wf).contr.Idx) :
    ((plainDims R K C wf).lhsIdx o q 1).val = (q ⟨0, Nat.one_pos⟩).val :=
  (plainDims R K C wf).lhsIdx_val_of_single rfl o q

theorem rhs_contr (o : (⟨2, ![R, C]⟩ : Shape).Idx) (q : (plainDims R K C wf).contr.Idx) :
    ((plainDims R K C wf).rhsIdx o q 0).val = (q ⟨0, Nat.one_pos⟩).val :=
  (plainDims R K C wf).rhsIdx_val_of_single rfl o q

theorem rhs_col (o : (⟨2, ![R, C]⟩ : Shape).Idx) (q : (plainDims R K C wf).contr.Idx) :
    ((plainDims R K C wf).rhsIdx o q 1).val = (o 1).val := by
  unfold DotDims.rhsIdx
  rw [dif_neg (show ¬(1 : Fin 2) ∈ (plainDims R K C wf).rhsBatch from List.not_mem_nil),
    dif_pos (show (1 : Fin 2) ∈ (plainDims R K C wf).rhsNonContracting from List.mem_singleton.mpr rfl)]
  rfl

/-- The contraction's sum, re-indexed by the one contracted coordinate. -/
theorem plain_sum (l : (⟨2, ![R, K]⟩ : Shape).Idx → EReal) (r : (⟨2, ![K, C]⟩ : Shape).Idx → EReal) (i : Fin R) (j : Fin C) :
    ∑ q : (plainDims R K C wf).contr.Idx,
        l ((plainDims R K C wf).lhsIdx (ix2 i j) q) * r ((plainDims R K C wf).rhsIdx (ix2 i j) q)
      = ∑ k : Fin K, l (ix2 i k) * r (ix2 k j) := by
  rw [← Equiv.sum_comp (contrEquiv1 (plainDims R K C wf) K rfl rfl).symm]
  refine Finset.sum_congr rfl fun k _ => ?_
  have hk := contrEquiv1_symm_val (plainDims R K C wf) K rfl rfl k
  have el : (plainDims R K C wf).lhsIdx (ix2 i j) ((contrEquiv1 (plainDims R K C wf) K rfl rfl).symm k) = ix2 i k :=
    funext fun a => Fin.ext (by
      match a with
      | ⟨0, _⟩ => exact lhs_row wf _ _
      | ⟨1, _⟩ => exact (lhs_contr wf _ _).trans hk)
  have er : (plainDims R K C wf).rhsIdx (ix2 i j) ((contrEquiv1 (plainDims R K C wf) K rfl rfl).symm k) = ix2 k j :=
    funext fun a => Fin.ext (by
      match a with
      | ⟨0, _⟩ => exact (rhs_contr wf _ _).trans hk
      | ⟨1, _⟩ => exact rhs_col wf _ _)
  rw [el, er]

/-- A matrix product into the zero accumulator, at an entry: the row of the left factor against the column of the right. -/
theorem matmul_zero_plain_apply {φ₁ φ₂ : FTy} (l : FVec Ideal ⟨2, ![R, K]⟩ φ₁) (r : FVec Ideal ⟨2, ![K, C]⟩ φ₂)
    (i : Fin R) (j : Fin C) :
    matmul (plainDims R K C wf) none l r (constant (F := Ideal) ⟨2, ![R, C]⟩ .f32 0x00000000#32) (ix2 i j)
      = ∑ k : Fin K, l (ix2 i k) * r (ix2 k j) :=
  (Ideal.matmul_constant_zero_apply (plainDims R K C wf) none l r (ix2 i j)).trans (plain_sum wf l r i j)

/-- The host's product of the same two matrices, at an entry: the same sum. -/
theorem dotGeneral_plain_apply {φ₁ φ₂ : FTy} (l : FVec Ideal ⟨2, ![R, K]⟩ φ₁) (r : FVec Ideal ⟨2, ![K, C]⟩ φ₂)
    (i : Fin R) (j : Fin C) :
    Host.dotGeneral (F := Ideal) (plainDims R K C wf) none l r (ix2 i j) = ∑ k : Fin K, l (ix2 i k) * r (ix2 k j) :=
  (Ideal.dotGeneral_apply (plainDims R K C wf) none .single l r (ix2 i j)).trans (plain_sum wf l r i j)

end Plain

/-! ## The specification at an entry -/

/-- act on one extended real: the number itself where it is nonnegative, the constant times it elsewhere. -/
def act1 (s : EReal) : EReal :=
  Scalar.select (FloatOps.cmpf (F := Ideal) (φ := .f32) .oge s (Ideal.ofBits .f32 0x00000000#32)) s
    (Ideal.ofBits .f32 0x3C23D70A#32 * s)

/-- The bias laid as a row and repeated down the rows reads, at (r, j), the bias at j. -/
theorem biasRows_apply (b : FVec Ideal S64 .f32) (r : Fin 10000) (j : Fin 64) :
    Cert.Spec.biasRows b (ix2 r j) = b (ix1 j) := by
  unfold Cert.Spec.biasRows
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- adj · u + b at (r, j): row r of adj against column j of u, plus the bias at j. -/
theorem aggregate_apply (adj : FVec Ideal S10000x10000 .f32) (u : FVec Ideal S10000x64 .f32) (b : FVec Ideal S64 .f32)
    (r : Fin 10000) (j : Fin 64) :
    Cert.Spec.aggregate adj u b (ix2 r j) = (∑ k : Fin 10000, adj (ix2 r k) * u (ix2 k j)) + b (ix1 j) := by
  unfold Cert.Spec.aggregate
  refine (addf_apply _ _ _).trans ?_
  rw [biasRows_apply]
  exact congrArg (· + b (ix1 j)) (dotGeneral_plain_apply _ adj u r j)

/-- The specification's act works entry by entry. -/
theorem act_apply (a : FVec Ideal S10000x64 .f32) (o : S10000x64.Idx) : Cert.Spec.act a o = act1 (a o) := rfl

/-! ## The kernels' blocks at an entry -/

/-- The kernels' act on a block works entry by entry, and is the same function of the entry. -/
theorem blockAct_apply {s : Shape} (v : FVec Ideal s .f32) (o : s.Idx) :
    select (cmpf .oge v (broadcast s (Scalar.ofBits (F := Ideal) .f32 0x00000000#32))) v
        (mulf (broadcast s (Scalar.ofBits (F := Ideal) .f32 0x3C23D70A#32)) v) o
      = act1 (v o) := rfl

/-- The first layer's stored block at (i, j), in the block's own rows. -/
theorem pay3_apply (A : FVec Ideal S400x10000 .f32) (u : FVec Ideal S10000x64 .bf16) (brow : FVec Ideal S1x64 .f32)
    (i : Fin 400) (j : Fin 64) :
    Gen.k0_pay3 (F := Ideal) A u brow (ix2 i j)
      = act1 ((∑ k : Fin 10000, A (ix2 i k) * u (ix2 k j)) + brow (ix2 0 j)) := by
  have hs : addf (matmul dot_S400x10000_S10000x64_S400x64_1_0_0_1_n_n none (Gen.k0_pay2 (F := Ideal) A) u
        (constant (F := Ideal) S400x64 .f32 0x00000000#32))
      (broadcastTo S400x64 (shapeCast S1x64 brow Facts₀.shapeCasts_S1x64_S1x64) Facts₀.broadcasts_S1x64_S400x64) (ix2 i j)
      = (∑ k : Fin 10000, A (ix2 i k) * u (ix2 k j)) + brow (ix2 0 j) := by
    refine (addf_apply _ _ _).trans ?_
    rw [shapeCast_self, broadcastTo_1b_ab_apply]
    exact congrArg (· + brow (ix2 0 j)) (matmul_zero_plain_apply _ A u i j)
  refine (blockAct_apply (addf (matmul dot_S400x10000_S10000x64_S400x64_1_0_0_1_n_n none (Gen.k0_pay2 (F := Ideal) A) u
        (constant (F := Ideal) S400x64 .f32 0x00000000#32))
      (broadcastTo S400x64 (shapeCast S1x64 brow Facts₀.shapeCasts_S1x64_S1x64) Facts₀.broadcasts_S1x64_S400x64)) (ix2 i j)).trans ?_
  rw [hs]

/-- A block of 400 rows of the first layer: rows o … o+399 of act (adj · u + b). -/
theorem rows0 (o : ℕ) (ho : o + 400 ≤ 10000) (A : FVec Ideal S400x10000 .f32) (adj : FVec Ideal S10000x10000 .f32)
    (hA : ∀ (i : Fin 400) (k : Fin 10000), A (ix2 i k) = adj (ix2 ⟨o + i.val, by omega⟩ k))
    (u : FVec Ideal S10000x64 .bf16) (brow : FVec Ideal S1x64 .f32) (b : FVec Ideal S64 .f32)
    (hb : ∀ j : Fin 64, brow (ix2 0 j) = b (ix1 j)) (i : Fin 400) (j : Fin 64) :
    Gen.k0_pay3 (F := Ideal) A u brow (ix2 i j)
      = Cert.Spec.act (Cert.Spec.aggregate adj u b) (ix2 ⟨o + i.val, by omega⟩ j) := by
  rw [pay3_apply, act_apply, aggregate_apply, hb]
  simp only [hA]

/-! ## The later layers' blocks -/

/-- A later layer's block before act, at (i, j): row i of the block of adj against column j of u, plus the bias row at j. -/
theorem affine1000_apply (A : FVec Ideal S1000x10000 .bf16) (u : FVec Ideal S10000x64 .bf16) (brow : FVec Ideal S1x64 .f32)
    (i : Fin 1000) (j : Fin 64) :
    addf (matmul dot_S1000x10000_S10000x64_S1000x64_1_0_0_1_n_n none
          (shapeCast S1000x10000 A Facts₀.shapeCasts_S1000x10000_S1000x10000) u
          (constant (F := Ideal) S1000x64 .f32 0x00000000#32))
        (broadcastTo S1000x64 (shapeCast S1x64 brow Facts₀.shapeCasts_S1x64_S1x64) Facts₀.broadcasts_S1x64_S1000x64) (ix2 i j)
      = (∑ k : Fin 10000, A (ix2 i k) * u (ix2 k j)) + brow (ix2 0 j) := by
  refine (addf_apply _ _ _).trans ?_
  rw [shapeCast_self, shapeCast_self, broadcastTo_1b_ab_apply]
  exact congrArg (· + brow (ix2 0 j)) (matmul_zero_plain_apply _ A u i j)

/-- The middle layer's stored block at (i, j), in the block's own rows. -/
theorem pay2_mid_apply (A : FVec Ideal S1000x10000 .bf16) (u : FVec Ideal S10000x64 .bf16) (brow : FVec Ideal S1x64 .f32)
    (i : Fin 1000) (j : Fin 64) :
    Gen.k1_pay2 (F := Ideal) A u brow (ix2 i j)
      = act1 ((∑ k : Fin 10000, A (ix2 i k) * u (ix2 k j)) + brow (ix2 0 j)) := by
  refine (blockAct_apply (addf (matmul dot_S1000x10000_S10000x64_S1000x64_1_0_0_1_n_n none
          (shapeCast S1000x10000 A Facts₀.shapeCasts_S1000x10000_S1000x10000) u
          (constant (F := Ideal) S1000x64 .f32 0x00000000#32))
        (broadcastTo S1000x64 (shapeCast S1x64 brow Facts₀.shapeCasts_S1x64_S1x64) Facts₀.broadcasts_S1x64_S1000x64)) (ix2 i j)).trans ?_
  rw [affine1000_apply]

/-- The last layer's stored block at (i, j): the same sum plus the bias, with no act. -/
theorem pay2_last_apply (A : FVec Ideal S1000x10000 .bf16) (u : FVec Ideal S10000x64 .bf16) (brow : FVec Ideal S1x64 .f32)
    (i : Fin 1000) (j : Fin 64) :
    Gen.k2_pay2 (F := Ideal) A u brow (ix2 i j) = (∑ k : Fin 10000, A (ix2 i k) * u (ix2 k j)) + brow (ix2 0 j) :=
  affine1000_apply A u brow i j

/-- A block of 1000 rows of the middle layer: rows o … o+999 of act (adj · u + b). -/
theorem rows1 (o : ℕ) (ho : o + 1000 ≤ 10000) (A : FVec Ideal S1000x10000 .bf16) (adj : FVec Ideal S10000x10000 .f32)
    (hA : ∀ (i : Fin 1000) (k : Fin 10000), A (ix2 i k) = adj (ix2 ⟨o + i.val, by omega⟩ k))
    (u : FVec Ideal S10000x64 .bf16) (brow : FVec Ideal S1x64 .f32) (b : FVec Ideal S64 .f32)
    (hb : ∀ j : Fin 64, brow (ix2 0 j) = b (ix1 j)) (i : Fin 1000) (j : Fin 64) :
    Gen.k1_pay2 (F := Ideal) A u brow (ix2 i j)
      = Cert.Spec.act (Cert.Spec.aggregate adj u b) (ix2 ⟨o + i.val, by omega⟩ j) := by
  rw [pay2_mid_apply, act_apply, aggregate_apply, hb]
  simp only [hA]

/-- A block of 1000 rows of the last layer: rows o … o+999 of adj · u + b. -/
theorem rows2 (o : ℕ) (ho : o + 1000 ≤ 10000) (A : FVec Ideal S1000x10000 .bf16) (adj : FVec Ideal S10000x10000 .f32)
    (hA : ∀ (i : Fin 1000) (k : Fin 10000), A (ix2 i k) = adj (ix2 ⟨o + i.val, by omega⟩ k))
    (u : FVec Ideal S10000x64 .bf16) (brow : FVec Ideal S1x64 .f32) (b : FVec Ideal S64 .f32)
    (hb : ∀ j : Fin 64, brow (ix2 0 j) = b (ix1 j)) (i : Fin 1000) (j : Fin 64) :
    Gen.k2_pay2 (F := Ideal) A u brow (ix2 i j)
      = Cert.Spec.aggregate adj u b (ix2 ⟨o + i.val, by omega⟩ j) := by
  rw [pay2_last_apply, aggregate_apply, hb]
  simp only [hA]

/-! ## The projections, as whole arrays -/

/-- The bf16 copy of a block of adj is the block. -/
theorem cast0 (A : FVec Ideal S400x10000 .f32) : Gen.k0_pay2 (F := Ideal) A = A := rfl

/-- The first layer's projection is x · W. -/
theorem proj0 (x : FVec Ideal S10000x128 .f32) (W : FVec Ideal S128x64 .f32) :
    Gen.k0_pay1 (F := Ideal) x W = Cert.Spec.project1 x W := by
  unfold Gen.k0_pay1 Cert.Spec.project1
  refine (shapeCast_self _ _).trans ?_
  funext o
  obtain ⟨i, j, rfl⟩ : ∃ (i : Fin 10000) (j : Fin 64), o = ix2 i j := ⟨o 0, o 1, eq_ix2 o⟩
  exact (matmul_zero_plain_apply _ x W i j).trans (dotGeneral_plain_apply _ x W i j).symm

/-- A later layer's projection is h · W. -/
theorem proj1 (h : FVec Ideal S10000x64 .f32) (W : FVec Ideal S64x64 .f32) :
    Gen.k1_pay1 (F := Ideal) h W = Cert.Spec.projectK h W := by
  unfold Gen.k1_pay1 Cert.Spec.projectK
  refine (shapeCast_self _ _).trans ?_
  funext o
  obtain ⟨i, j, rfl⟩ : ∃ (i : Fin 10000) (j : Fin 64), o = ix2 i j := ⟨o 0, o 1, eq_ix2 o⟩
  simp only [shapeCast_self]
  exact (matmul_zero_plain_apply _ h W i j).trans (dotGeneral_plain_apply _ h W i j).symm

/-- The last layer's projection is the same product. -/
theorem proj2 (h : FVec Ideal S10000x64 .f32) (W : FVec Ideal S64x64 .f32) :
    Gen.k2_pay1 (F := Ideal) h W = Cert.Spec.projectK h W := by
  unfold Gen.k2_pay1 Cert.Spec.projectK
  refine (shapeCast_self _ _).trans ?_
  funext o
  obtain ⟨i, j, rfl⟩ : ∃ (i : Fin 10000) (j : Fin 64), o = ix2 i j := ⟨o 0, o 1, eq_ix2 o⟩
  simp only [shapeCast_self]
  exact (matmul_zero_plain_apply _ h W i j).trans (dotGeneral_plain_apply _ h W i j).symm

end Cert.KernelIdeal.Pay

end
-- ==== Proof.R0Value.lean ====
/-
  The first layer's two output arrays after its region, as functions of the arrays the region finds.

  The grid has 25 points; point t holds rows 400 t … 400 t + 399 of the adjacency matrix, the whole feature matrix x,
  the whole weight matrix W1 and the bias as a row. It writes back rows 400 t … 400 t + 399 of
  act (adj · (x · W1) + b), and the same rows of adj in the narrower format, which on extended reals is adj itself.
  Every row r of either output lies in the block of point r / 400, so after the last point each output array is the
  whole-array function.
-/
import proofs.«154258_g15032385536406_cont_week2b_1259_11_alg».proof.Proof.R0Data
import proofs.«154258_g15032385536406_cont_week2b_1259_11_alg».proof.Proof.Payloads
import proofs.«154258_g15032385536406_cont_week2b_1259_11_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The windows' block indices at grid point t: the adjacency window and the two outputs are at block row t, the
    features, the weights and the bias row are whole arrays (block index 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The grid has 25 points. -/
theorem pt_lt0 (t : Fin cfg0.N) : t.val < 25 := by
  have h : cfg0.N = 25 := N_0
  have := t.isLt
  omega

/-- The adjacency block at point t is rows 400 t … 400 t + 399 of the adjacency matrix. -/
theorem adjBlock0_apply (c : Dev nD) (t : Fin cfg0.N) (i : Fin 400) (k : Fin 10000) :
    (iblk0 V c 0 t : FVec Ideal S400x10000 .f32) (ix2 i k)
      = (V c main_arg1 : FVec Ideal S10000x10000 .f32) (ix2 ⟨400 * t.val + i.val, by have := pt_lt0 t; omega⟩ k) := by
  obtain ⟨e0, e1, -⟩ := idx_facts0 t
  unfold iblk0
  rw [View.read_apply]
  show V c main_arg1 _ = V c main_arg1 _
  refine congrArg _ (funext fun a => Fin.ext ?_)
  match a with
  | ⟨0, _⟩ => show win0_0.index t (0 : Fin 2) * 400 + 1 * i.val = 400 * t.val + i.val; omega
  | ⟨1, _⟩ => show win0_0.index t (1 : Fin 2) * 10000 + 1 * k.val = k.val; omega

/-- The bias window's block is the bias row itself. -/
theorem biasBlock0_apply (c : Dev nD) (t : Fin cfg0.N) (j : Fin 64) :
    (iblk0 V c 3 t : FVec Ideal S1x64 .f32) (ix2 0 j) = (V c main_v0 : FVec Ideal S1x64 .f32) (ix2 0 j) := by
  obtain ⟨-, -, -, -, -, -, e0, e1, -⟩ := idx_facts0 t
  unfold iblk0
  rw [View.read_apply]
  show V c main_v0 _ = V c main_v0 _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * j.val = j.val; omega

/-- The feature window's block is the whole feature matrix. -/
theorem featBlock0_eq (c : Dev nD) (t : Fin cfg0.N) :
    (iblk0 V c 1 t : FVec Ideal S10000x128 .f32) = (V c main_arg0 : FVec Ideal S10000x128 .f32) := by
  obtain ⟨-, -, e0, e1, -⟩ := idx_facts0 t
  funext y
  unfold iblk0
  rw [View.read_apply]
  show V c main_arg0 _ = V c main_arg0 _
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The weight window's block is the whole weight matrix. -/
theorem weightBlock0_eq (c : Dev nD) (t : Fin cfg0.N) :
    (iblk0 V c 2 t : FVec Ideal S128x64 .f32) = (V c main_arg2 : FVec Ideal S128x64 .f32) := by
  obtain ⟨-, -, -, -, e0, e1, -⟩ := idx_facts0 t
  funext y
  unfold iblk0
  rw [View.read_apply]
  show V c main_arg2 _ = V c main_arg2 _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The projected features the body keeps are x · W1 of the entry arrays. -/
theorem U0_eq (c : Dev nD) :
    (U0 V c : FVec Ideal S10000x64 .bf16)
      = Cert.Spec.project1 (V c main_arg0 : FVec Ideal S10000x128 .f32) (V c main_arg2 : FVec Ideal S128x64 .f32) := by
  unfold U0
  rw [featBlock0_eq V c t0_0, weightBlock0_eq V c t0_0]
  exact Pay.proj0 _ _

/-- What point t writes back to the layer's output is rows 400 t … 400 t + 399 of act (adj · (x · W1) + b). -/
theorem flushed0_4_eq (c : Dev nD) (b : FVec Ideal S64 .f32)
    (hb : ∀ j : Fin 64, (V c main_v0 : FVec Ideal S1x64 .f32) (ix2 0 j) = b (ix1 j)) (t : Fin cfg0.N) :
    (dat0 (F := Ideal) V c).flushed 4 t
      = ((cfg0.win 4).blk t).view.read (Elt Ideal)
          (Cert.Spec.act (Cert.Spec.aggregate (V c main_arg1 : FVec Ideal S10000x10000 .f32)
            (Cert.Spec.project1 (V c main_arg0 : FVec Ideal S10000x128 .f32) (V c main_arg2 : FVec Ideal S128x64 .f32)) b)) := by
  obtain ⟨-, -, -, -, -, -, -, -, e0, e1, -⟩ := idx_facts0 t
  have ht := pt_lt0 t
  show (cfg0.win 4).cut (grid0.coords t) ((dat0 V c).after 4 t) = _
  rw [after0_4, U0_eq]
  funext y
  obtain ⟨i, j, rfl⟩ : ∃ (i : Fin 400) (j : Fin 64), y = ix2 i j := ⟨y 0, y 1, eq_ix2 y⟩
  rw [View.read_apply]
  refine (Pay.rows0 (400 * t.val) (by omega) (iblk0 V c 0 t : FVec Ideal S400x10000 .f32)
    (V c main_arg1 : FVec Ideal S10000x10000 .f32) (adjBlock0_apply V c t)
    (Cert.Spec.project1 (V c main_arg0 : FVec Ideal S10000x128 .f32) (V c main_arg2 : FVec Ideal S128x64 .f32))
    (iblk0 V c 3 t : FVec Ideal S1x64 .f32) b (fun j => (biasBlock0_apply V c t j).trans (hb j)) i j).trans ?_
  refine congrArg _ (funext fun a => Fin.ext ?_)
  match a with
  | ⟨0, _⟩ => show 400 * t.val + i.val = win0_4.index t (0 : Fin 2) * 400 + 1 * i.val; omega
  | ⟨1, _⟩ => show j.val = win0_4.index t (1 : Fin 2) * 64 + 1 * j.val; omega

/-- A row of the output array lies in point t's block iff each coordinate is in the block's range on its axis. -/
theorem mem_blk0_4 (t : Fin cfg0.N) (r : S10000x64.Idx) :
    r ∈ ((cfg0.win 4).blk t).view.set
      ↔ ∀ a : Fin 2, win0_4.index t a * S400x64.size a ≤ (r a).val ∧ (r a).val < win0_4.index t a * S400x64.size a + S400x64.size a := by
  show r ∈ ((View.whole main_v1_0).slice (win0_4.rect t)).set ↔ _
  rw [View.set_slice_whole, Rect.mem_set_unit]
  exact Iff.rfl

/-- Every entry of the output array is written back by some point: row r by point r / 400. -/
theorem cover0_4 (r : S10000x64.Idx) :
    ∃ t : Fin cfg0.N, (cfg0.win 4).flush t = true ∧ r ∈ ((cfg0.win 4).blk t).view.set := by
  have hr0 : (r 0).val < 10000 := (r 0).isLt
  have hr1 : (r 1).val < 64 := (r 1).isLt
  have hN : cfg0.N = 25 := N_0
  obtain ⟨t, ht⟩ : ∃ t : Fin cfg0.N, t.val = (r 0).val / 400 := ⟨⟨(r 0).val / 400, by rw [hN]; omega⟩, rfl⟩
  obtain ⟨-, -, -, -, -, -, -, -, e0, e1, -⟩ := idx_facts0 t
  refine ⟨t, flush0_4 t, ?_⟩
  rw [mem_blk0_4]
  intro a
  match a with
  | ⟨0, _⟩ =>
    show win0_4.index t (0 : Fin 2) * 400 ≤ (r 0).val ∧ (r 0).val < win0_4.index t (0 : Fin 2) * 400 + 400
    omega
  | ⟨1, _⟩ =>
    show win0_4.index t (1 : Fin 2) * 64 ≤ (r 1).val ∧ (r 1).val < win0_4.index t (1 : Fin 2) * 64 + 64
    omega

/-- After the region the first layer's output array is act (adj · (x · W1) + b) of the entry arrays. -/
theorem final0_h (c : Dev nD) (b : FVec Ideal S64 .f32)
    (hb : ∀ j : Fin 64, (V c main_v0 : FVec Ideal S1x64 .f32) (ix2 0 j) = b (ix1 j)) :
    (dat0 (F := Ideal) V c).arrAt 4 cfg0.N
      = Cert.Spec.act (Cert.Spec.aggregate (V c main_arg1 : FVec Ideal S10000x10000 .f32)
          (Cert.Spec.project1 (V c main_arg0 : FVec Ideal S10000x128 .f32) (V c main_arg2 : FVec Ideal S128x64 .f32)) b) :=
  (dat0 (F := Ideal) V c).arrAt_eq_of_cover 4 _ (fun t _ => flushed0_4_eq V c b hb t) cover0_4

/-- What point t writes back to the second output is rows 400 t … 400 t + 399 of the adjacency matrix: the copy in the
    narrower format is the matrix itself on extended reals. -/
theorem flushed0_5_eq (c : Dev nD) (t : Fin cfg0.N) :
    (dat0 (F := Ideal) V c).flushed 5 t
      = ((cfg0.win 5).blk t).view.read (Elt Ideal) (V c main_arg1 : FVec Ideal S10000x10000 .bf16) := by
  obtain ⟨-, -, -, -, -, -, -, -, -, -, e0, e1⟩ := idx_facts0 t
  show (cfg0.win 5).cut (grid0.coords t) ((dat0 V c).after 5 t) = _
  rw [after0_5]
  funext y
  obtain ⟨i, k, rfl⟩ : ∃ (i : Fin 400) (k : Fin 10000), y = ix2 i k := ⟨y 0, y 1, eq_ix2 y⟩
  rw [View.read_apply]
  refine (congrFun (Pay.cast0 (iblk0 V c 0 t : FVec Ideal S400x10000 .f32)) (ix2 i k)).trans ?_
  refine (adjBlock0_apply V c t i k).trans ?_
  refine congrArg _ (funext fun a => Fin.ext ?_)
  match a with
  | ⟨0, _⟩ => show 400 * t.val + i.val = win0_5.index t (0 : Fin 2) * 400 + 1 * i.val; omega
  | ⟨1, _⟩ => show k.val = win0_5.index t (1 : Fin 2) * 10000 + 1 * k.val; omega

/-- An entry of the copy lies in point t's block iff each coordinate is in the block's range on its axis. -/
theorem mem_blk0_5 (t : Fin cfg0.N) (r : S10000x10000.Idx) :
    r ∈ ((cfg0.win 5).blk t).view.set
      ↔ ∀ a : Fin 2, win0_5.index t a * S400x10000.size a ≤ (r a).val ∧ (r a).val < win0_5.index t a * S400x10000.size a + S400x10000.size a := by
  show r ∈ ((View.whole main_v1_1).slice (win0_5.rect t)).set ↔ _
  rw [View.set_slice_whole, Rect.mem_set_unit]
  exact Iff.rfl

/-- Every entry of the copy is written back by some point: row r by point r / 400. -/
theorem cover0_5 (r : S10000x10000.Idx) :
    ∃ t : Fin cfg0.N, (cfg0.win 5).flush t = true ∧ r ∈ ((cfg0.win 5).blk t).view.set := by
  have hr0 : (r 0).val < 10000 := (r 0).isLt
  have hr1 : (r 1).val < 10000 := (r 1).isLt
  have hN : cfg0.N = 25 := N_0
  obtain ⟨t, ht⟩ : ∃ t : Fin cfg0.N, t.val = (r 0).val / 400 := ⟨⟨(r 0).val / 400, by rw [hN]; omega⟩, rfl⟩
  obtain ⟨-, -, -, -, -, -, -, -, -, -, e0, e1⟩ := idx_facts0 t
  refine ⟨t, flush0_5 t, ?_⟩
  rw [mem_blk0_5]
  intro a
  match a with
  | ⟨0, _⟩ =>
    show win0_5.index t (0 : Fin 2) * 400 ≤ (r 0).val ∧ (r 0).val < win0_5.index t (0 : Fin 2) * 400 + 400
    omega
  | ⟨1, _⟩ =>
    show win0_5.index t (1 : Fin 2) * 10000 ≤ (r 1).val ∧ (r 1).val < win0_5.index t (1 : Fin 2) * 10000 + 10000
    omega

/-- After the region the second output array is the adjacency matrix. -/
theorem final0_adj (c : Dev nD) : (dat0 (F := Ideal) V c).arrAt 5 cfg0.N = V c main_arg1 :=
  (dat0 (F := Ideal) V c).arrAt_eq_of_cover 5 _ (fun t _ => flushed0_5_eq V c t) cover0_5

end Cert.KernelIdeal.Hand

end
-- ==== Proof.R1Value.lean ====
/-
  The middle layer's output array after its region, as a function of the arrays the region finds.

  The grid has 10 points; point t holds rows 1000 t … 1000 t + 999 of the adjacency matrix, the whole matrix h of the
  previous layer's features, the whole weight matrix W and the bias as a row. It writes back rows
  1000 t … 1000 t + 999 of act (adj · (h · W) + b). Every row r of the output lies in the block of point r / 1000, so after
  the last point the output array is the whole-array function.
-/
import proofs.«154258_g15032385536406_cont_week2b_1259_11_alg».proof.Proof.R1Data
import proofs.«154258_g15032385536406_cont_week2b_1259_11_alg».proof.Proof.Payloads
import proofs.«154258_g15032385536406_cont_week2b_1259_11_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The windows' block indices at grid point t: the adjacency window and the output are at block row t, the
    features, the weights and the bias row are whole arrays (block index 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has 10 points. -/
theorem pt_lt1 (t : Fin cfg1.N) : t.val < 10 := by
  have h : cfg1.N = 10 := N_1
  have := t.isLt
  omega

/-- The adjacency block at point t is rows 1000 t … 1000 t + 999 of the adjacency matrix. -/
theorem adjBlock1_apply (c : Dev nD) (t : Fin cfg1.N) (i : Fin 1000) (k : Fin 10000) :
    (iblk1 V c 0 t : FVec Ideal S1000x10000 .bf16) (ix2 i k)
      = (V c main_v1_1 : FVec Ideal S10000x10000 .f32) (ix2 ⟨1000 * t.val + i.val, by have := pt_lt1 t; omega⟩ k) := by
  obtain ⟨e0, e1, -⟩ := idx_facts1 t
  unfold iblk1
  rw [View.read_apply]
  show V c main_v1_1 _ = V c main_v1_1 _
  refine congrArg _ (funext fun a => Fin.ext ?_)
  match a with
  | ⟨0, _⟩ => show win1_0.index t (0 : Fin 2) * 1000 + 1 * i.val = 1000 * t.val + i.val; omega
  | ⟨1, _⟩ => show win1_0.index t (1 : Fin 2) * 10000 + 1 * k.val = k.val; omega

/-- The bias window's block is the bias row itself. -/
theorem biasBlock1_apply (c : Dev nD) (t : Fin cfg1.N) (j : Fin 64) :
    (iblk1 V c 3 t : FVec Ideal S1x64 .f32) (ix2 0 j) = (V c main_v2 : FVec Ideal S1x64 .f32) (ix2 0 j) := by
  obtain ⟨-, -, -, -, -, -, e0, e1, -⟩ := idx_facts1 t
  unfold iblk1
  rw [View.read_apply]
  show V c main_v2 _ = V c main_v2 _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * j.val = j.val; omega

/-- The feature window's block is the whole feature matrix. -/
theorem featBlock1_eq (c : Dev nD) (t : Fin cfg1.N) :
    (iblk1 V c 1 t : FVec Ideal S10000x64 .f32) = (V c main_v1_0 : FVec Ideal S10000x64 .f32) := by
  obtain ⟨-, -, e0, e1, -⟩ := idx_facts1 t
  funext y
  unfold iblk1
  rw [View.read_apply]
  show V c main_v1_0 _ = V c main_v1_0 _
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

/-- The weight window's block is the whole weight matrix. -/
theorem weightBlock1_eq (c : Dev nD) (t : Fin cfg1.N) :
    (iblk1 V c 2 t : FVec Ideal S64x64 .f32) = (V c main_arg4 : FVec Ideal S64x64 .f32) := by
  obtain ⟨-, -, -, -, e0, e1, -⟩ := idx_facts1 t
  funext y
  unfold iblk1
  rw [View.read_apply]
  show V c main_arg4 _ = V c main_arg4 _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The projected features the body keeps are h · W of the entry arrays. -/
theorem U1_eq (c : Dev nD) :
    (U1 V c : FVec Ideal S10000x64 .bf16)
      = Cert.Spec.projectK (V c main_v1_0 : FVec Ideal S10000x64 .f32) (V c main_arg4 : FVec Ideal S64x64 .f32) := by
  unfold U1
  rw [featBlock1_eq V c t0_1, weightBlock1_eq V c t0_1]
  exact Pay.proj1 _ _

/-- What point t writes back is rows 1000 t … 1000 t + 999 of act (adj · (h · W) + b). -/
theorem flushed1_4_eq (c : Dev nD) (b : FVec Ideal S64 .f32)
    (hb : ∀ j : Fin 64, (V c main_v2 : FVec Ideal S1x64 .f32) (ix2 0 j) = b (ix1 j)) (t : Fin cfg1.N) :
    (dat1 (F := Ideal) V c).flushed 4 t
      = ((cfg1.win 4).blk t).view.read (Elt Ideal)
          (Cert.Spec.act (Cert.Spec.aggregate (V c main_v1_1 : FVec Ideal S10000x10000 .f32)
            (Cert.Spec.projectK (V c main_v1_0 : FVec Ideal S10000x64 .f32) (V c main_arg4 : FVec Ideal S64x64 .f32)) b)) := by
  obtain ⟨-, -, -, -, -, -, -, -, e0, e1⟩ := idx_facts1 t
  have ht := pt_lt1 t
  show (cfg1.win 4).cut (grid1.coords t) ((dat1 V c).after 4 t) = _
  rw [after1_4, U1_eq]
  funext y
  obtain ⟨i, j, rfl⟩ : ∃ (i : Fin 1000) (j : Fin 64), y = ix2 i j := ⟨y 0, y 1, eq_ix2 y⟩
  rw [View.read_apply]
  refine (Pay.rows1 (1000 * t.val) (by omega) (iblk1 V c 0 t : FVec Ideal S1000x10000 .bf16)
    (V c main_v1_1 : FVec Ideal S10000x10000 .f32) (adjBlock1_apply V c t)
    (Cert.Spec.projectK (V c main_v1_0 : FVec Ideal S10000x64 .f32) (V c main_arg4 : FVec Ideal S64x64 .f32))
    (iblk1 V c 3 t : FVec Ideal S1x64 .f32) b (fun j => (biasBlock1_apply V c t j).trans (hb j)) i j).trans ?_
  refine congrArg _ (funext fun a => Fin.ext ?_)
  match a with
  | ⟨0, _⟩ => show 1000 * t.val + i.val = win1_4.index t (0 : Fin 2) * 1000 + 1 * i.val; omega
  | ⟨1, _⟩ => show j.val = win1_4.index t (1 : Fin 2) * 64 + 1 * j.val; omega

/-- An entry of the output array lies in point t's block iff each coordinate is in the block's range on its axis. -/
theorem mem_blk1_4 (t : Fin cfg1.N) (r : S10000x64.Idx) :
    r ∈ ((cfg1.win 4).blk t).view.set
      ↔ ∀ a : Fin 2, win1_4.index t a * S1000x64.size a ≤ (r a).val ∧ (r a).val < win1_4.index t a * S1000x64.size a + S1000x64.size a := by
  show r ∈ ((View.whole main_v3).slice (win1_4.rect t)).set ↔ _
  rw [View.set_slice_whole, Rect.mem_set_unit]
  exact Iff.rfl

/-- Every entry of the output array is written back by some point: row r by point r / 1000. -/
theorem cover1_4 (r : S10000x64.Idx) :
    ∃ t : Fin cfg1.N, (cfg1.win 4).flush t = true ∧ r ∈ ((cfg1.win 4).blk t).view.set := by
  have hr0 : (r 0).val < 10000 := (r 0).isLt
  have hr1 : (r 1).val < 64 := (r 1).isLt
  have hN : cfg1.N = 10 := N_1
  obtain ⟨t, ht⟩ : ∃ t : Fin cfg1.N, t.val = (r 0).val / 1000 := ⟨⟨(r 0).val / 1000, by rw [hN]; omega⟩, rfl⟩
  obtain ⟨-, -, -, -, -, -, -, -, e0, e1⟩ := idx_facts1 t
  refine ⟨t, flush1_4 t, ?_⟩
  rw [mem_blk1_4]
  intro a
  match a with
  | ⟨0, _⟩ =>
    show win1_4.index t (0 : Fin 2) * 1000 ≤ (r 0).val ∧ (r 0).val < win1_4.index t (0 : Fin 2) * 1000 + 1000
    omega
  | ⟨1, _⟩ =>
    show win1_4.index t (1 : Fin 2) * 64 ≤ (r 1).val ∧ (r 1).val < win1_4.index t (1 : Fin 2) * 64 + 64
    omega

/-- After the region the layer's output array is act (adj · (h · W) + b) of the entry arrays. -/
theorem final1 (c : Dev nD) (b : FVec Ideal S64 .f32)
    (hb : ∀ j : Fin 64, (V c main_v2 : FVec Ideal S1x64 .f32) (ix2 0 j) = b (ix1 j)) :
    (dat1 (F := Ideal) V c).arrAt 4 cfg1.N
      = Cert.Spec.act (Cert.Spec.aggregate (V c main_v1_1 : FVec Ideal S10000x10000 .f32)
          (Cert.Spec.projectK (V c main_v1_0 : FVec Ideal S10000x64 .f32) (V c main_arg4 : FVec Ideal S64x64 .f32)) b) :=
  (dat1 (F := Ideal) V c).arrAt_eq_of_cover 4 _ (fun t _ => flushed1_4_eq V c b hb t) cover1_4

end Cert.KernelIdeal.Hand

end
-- ==== Proof.R2Value.lean ====
/-
  The last layer's output array after its region, as a function of the arrays the region finds.

  The grid has 10 points; point t holds rows 1000 t … 1000 t + 999 of the adjacency matrix, the whole matrix h of the
  previous layer's features, the whole weight matrix W and the bias as a row. It writes back rows
  1000 t … 1000 t + 999 of adj · (h · W) + b. Every row r of the output lies in the block of point r / 1000, so after
  the last point the output array is the whole-array function.
-/
import proofs.«154258_g15032385536406_cont_week2b_1259_11_alg».proof.Proof.R2Data
import proofs.«154258_g15032385536406_cont_week2b_1259_11_alg».proof.Proof.Payloads
import proofs.«154258_g15032385536406_cont_week2b_1259_11_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The windows' block indices at grid point t: the adjacency window and the output are at block row t, the
    features, the weights and the bias row are whole arrays (block index 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The grid has 10 points. -/
theorem pt_lt2 (t : Fin cfg2.N) : t.val < 10 := by
  have h : cfg2.N = 10 := N_2
  have := t.isLt
  omega

/-- The adjacency block at point t is rows 1000 t … 1000 t + 999 of the adjacency matrix. -/
theorem adjBlock2_apply (c : Dev nD) (t : Fin cfg2.N) (i : Fin 1000) (k : Fin 10000) :
    (iblk2 V c 0 t : FVec Ideal S1000x10000 .bf16) (ix2 i k)
      = (V c main_v1_1 : FVec Ideal S10000x10000 .f32) (ix2 ⟨1000 * t.val + i.val, by have := pt_lt2 t; omega⟩ k) := by
  obtain ⟨e0, e1, -⟩ := idx_facts2 t
  unfold iblk2
  rw [View.read_apply]
  show V c main_v1_1 _ = V c main_v1_1 _
  refine congrArg _ (funext fun a => Fin.ext ?_)
  match a with
  | ⟨0, _⟩ => show win2_0.index t (0 : Fin 2) * 1000 + 1 * i.val = 1000 * t.val + i.val; omega
  | ⟨1, _⟩ => show win2_0.index t (1 : Fin 2) * 10000 + 1 * k.val = k.val; omega

/-- The bias window's block is the bias row itself. -/
theorem biasBlock2_apply (c : Dev nD) (t : Fin cfg2.N) (j : Fin 64) :
    (iblk2 V c 3 t : FVec Ideal S1x64 .f32) (ix2 0 j) = (V c main_v4 : FVec Ideal S1x64 .f32) (ix2 0 j) := by
  obtain ⟨-, -, -, -, -, -, e0, e1, -⟩ := idx_facts2 t
  unfold iblk2
  rw [View.read_apply]
  show V c main_v4 _ = V c main_v4 _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * j.val = j.val; omega

/-- The feature window's block is the whole feature matrix. -/
theorem featBlock2_eq (c : Dev nD) (t : Fin cfg2.N) :
    (iblk2 V c 1 t : FVec Ideal S10000x64 .f32) = (V c main_v3 : FVec Ideal S10000x64 .f32) := by
  obtain ⟨-, -, e0, e1, -⟩ := idx_facts2 t
  funext y
  unfold iblk2
  rw [View.read_apply]
  show V c main_v3 _ = V c main_v3 _
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- The weight window's block is the whole weight matrix. -/
theorem weightBlock2_eq (c : Dev nD) (t : Fin cfg2.N) :
    (iblk2 V c 2 t : FVec Ideal S64x64 .f32) = (V c main_arg6 : FVec Ideal S64x64 .f32) := by
  obtain ⟨-, -, -, -, e0, e1, -⟩ := idx_facts2 t
  funext y
  unfold iblk2
  rw [View.read_apply]
  show V c main_arg6 _ = V c main_arg6 _
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The projected features the body keeps are h · W of the entry arrays. -/
theorem U2_eq (c : Dev nD) :
    (U2 V c : FVec Ideal S10000x64 .bf16)
      = Cert.Spec.projectK (V c main_v3 : FVec Ideal S10000x64 .f32) (V c main_arg6 : FVec Ideal S64x64 .f32) := by
  unfold U2
  rw [featBlock2_eq V c t0_2, weightBlock2_eq V c t0_2]
  exact Pay.proj2 _ _

/-- What point t writes back is rows 1000 t … 1000 t + 999 of adj · (h · W) + b. -/
theorem flushed2_4_eq (c : Dev nD) (b : FVec Ideal S64 .f32)
    (hb : ∀ j : Fin 64, (V c main_v4 : FVec Ideal S1x64 .f32) (ix2 0 j) = b (ix1 j)) (t : Fin cfg2.N) :
    (dat2 (F := Ideal) V c).flushed 4 t
      = ((cfg2.win 4).blk t).view.read (Elt Ideal)
          (Cert.Spec.aggregate (V c main_v1_1 : FVec Ideal S10000x10000 .f32)
            (Cert.Spec.projectK (V c main_v3 : FVec Ideal S10000x64 .f32) (V c main_arg6 : FVec Ideal S64x64 .f32)) b) := by
  obtain ⟨-, -, -, -, -, -, -, -, e0, e1⟩ := idx_facts2 t
  have ht := pt_lt2 t
  show (cfg2.win 4).cut (grid2.coords t) ((dat2 V c).after 4 t) = _
  rw [after2_4, U2_eq]
  funext y
  obtain ⟨i, j, rfl⟩ : ∃ (i : Fin 1000) (j : Fin 64), y = ix2 i j := ⟨y 0, y 1, eq_ix2 y⟩
  rw [View.read_apply]
  refine (Pay.rows2 (1000 * t.val) (by omega) (iblk2 V c 0 t : FVec Ideal S1000x10000 .bf16)
    (V c main_v1_1 : FVec Ideal S10000x10000 .f32) (adjBlock2_apply V c t)
    (Cert.Spec.projectK (V c main_v3 : FVec Ideal S10000x64 .f32) (V c main_arg6 : FVec Ideal S64x64 .f32))
    (iblk2 V c 3 t : FVec Ideal S1x64 .f32) b (fun j => (biasBlock2_apply V c t j).trans (hb j)) i j).trans ?_
  refine congrArg _ (funext fun a => Fin.ext ?_)
  match a with
  | ⟨0, _⟩ => show 1000 * t.val + i.val = win2_4.index t (0 : Fin 2) * 1000 + 1 * i.val; omega
  | ⟨1, _⟩ => show j.val = win2_4.index t (1 : Fin 2) * 64 + 1 * j.val; omega

/-- An entry of the output array lies in point t's block iff each coordinate is in the block's range on its axis. -/
theorem mem_blk2_4 (t : Fin cfg2.N) (r : S10000x64.Idx) :
    r ∈ ((cfg2.win 4).blk t).view.set
      ↔ ∀ a : Fin 2, win2_4.index t a * S1000x64.size a ≤ (r a).val ∧ (r a).val < win2_4.index t a * S1000x64.size a + S1000x64.size a := by
  show r ∈ ((View.whole main_v5).slice (win2_4.rect t)).set ↔ _
  rw [View.set_slice_whole, Rect.mem_set_unit]
  exact Iff.rfl

/-- Every entry of the output array is written back by some point: row r by point r / 1000. -/
theorem cover2_4 (r : S10000x64.Idx) :
    ∃ t : Fin cfg2.N, (cfg2.win 4).flush t = true ∧ r ∈ ((cfg2.win 4).blk t).view.set := by
  have hr0 : (r 0).val < 10000 := (r 0).isLt
  have hr1 : (r 1).val < 64 := (r 1).isLt
  have hN : cfg2.N = 10 := N_2
  obtain ⟨t, ht⟩ : ∃ t : Fin cfg2.N, t.val = (r 0).val / 1000 := ⟨⟨(r 0).val / 1000, by rw [hN]; omega⟩, rfl⟩
  obtain ⟨-, -, -, -, -, -, -, -, e0, e1⟩ := idx_facts2 t
  refine ⟨t, flush2_4 t, ?_⟩
  rw [mem_blk2_4]
  intro a
  match a with
  | ⟨0, _⟩ =>
    show win2_4.index t (0 : Fin 2) * 1000 ≤ (r 0).val ∧ (r 0).val < win2_4.index t (0 : Fin 2) * 1000 + 1000
    omega
  | ⟨1, _⟩ =>
    show win2_4.index t (1 : Fin 2) * 64 ≤ (r 1).val ∧ (r 1).val < win2_4.index t (1 : Fin 2) * 64 + 64
    omega

/-- After the region the layer's output array is adj · (h · W) + b of the entry arrays. -/
theorem final2 (c : Dev nD) (b : FVec Ideal S64 .f32)
    (hb : ∀ j : Fin 64, (V c main_v4 : FVec Ideal S1x64 .f32) (ix2 0 j) = b (ix1 j)) :
    (dat2 (F := Ideal) V c).arrAt 4 cfg2.N
      = Cert.Spec.aggregate (V c main_v1_1 : FVec Ideal S10000x10000 .f32)
          (Cert.Spec.projectK (V c main_v3 : FVec Ideal S10000x64 .f32) (V c main_arg6 : FVec Ideal S64x64 .f32)) b :=
  (dat2 (F := Ideal) V c).arrAt_eq_of_cover 4 _ (fun t _ => flushed2_4_eq V c b hb t) cover2_4

end Cert.KernelIdeal.Hand

end
-- ==== Proof.RefRun.lean ====
/-
  The reference program read as one straight line of whole-array operations, and what it leaves in memory.

  The reference computes three layers  h ↦ adj · (h · W) + b  (the bias laid as a row and repeated down the rows), the
  first two followed by the activation  a ↦ a where a ≥ 0, c · a elsewhere.  Each activation is written in the program as a
  call of a helper that itself calls a selection helper; a call means its body with the operands substituted, so once both
  bodies are put in place of the calls the program is thirty-one operations in a row: five per layer, and per activation the
  constant c followed by the seven steps of the helper (the zero, its spreading over the array, the comparison, the copy of c,
  its spreading, the product, the selection).

  Every operation writes one array of its own from arrays written before it.  So the contents of an array after the whole line
  is obtained by reading the line backwards from the operation that writes it: the function of that operation applied to the
  contents of its operands, and so on down to the eight argument arrays, which no operation writes and which therefore end as
  they began.  Read this way the last array holds exactly the composition that `Cert.Spec.gcn` spells out.
-/
import proofs.«154258_g15032385536406_cont_week2b_1259_11_alg».proof.Defs
import proofs.«154258_g15032385536406_cont_week2b_1259_11_alg».proof.Proof.Gen.ReferenceIdeal
import proofs.«154258_g15032385536406_cont_week2b_1259_11_alg».proof.Proof.Gen.Pre_finite_inputs
import proofs.«154258_g15032385536406_cont_week2b_1259_11_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-one operations in order: layer one, the first activation (its constant, then the helper's seven steps over the
    arrays of that call), layer two, the second activation, layer three. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    nullary main_cst (constant S_ .f32 0x3C23D70A#32),
    TRef.nullary main_call0.cst (constant S_ .f32 0x00000000#32),
    TRef.unary main_call0.cst main_call0.v0 (broadcastInDim S10000x64 ![] bcast_S_S10000x64),
    TRef.binary (.of main_v4) main_call0.v0 main_call0.v1 (cmpf .oge),
    TRef.unary (.of main_cst) main_call0.v2 id,
    TRef.unary main_call0.v2 main_call0.v3 (broadcastInDim S10000x64 ![] bcast_S_S10000x64),
    TRef.binary main_call0.v3 (.of main_v4) main_call0.v4 mulf,
    TRef.ternary main_call0.v1 (.of main_v4) main_call0.v4 main_call0.call0.v0 select,
    binary main_v5 main_arg4 main_v6 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    nullary main_cst_0 (constant S_ .f32 0x3C23D70A#32),
    TRef.nullary main_call1.cst (constant S_ .f32 0x00000000#32),
    TRef.unary main_call1.cst main_call1.v0 (broadcastInDim S10000x64 ![] bcast_S_S10000x64),
    TRef.binary (.of main_v10) main_call1.v0 main_call1.v1 (cmpf .oge),
    TRef.unary (.of main_cst_0) main_call1.v2 id,
    TRef.unary main_call1.v2 main_call1.v3 (broadcastInDim S10000x64 ![] bcast_S_S10000x64),
    TRef.binary main_call1.v3 (.of main_v10) main_call1.v4 mulf,
    TRef.ternary main_call1.v1 (.of main_v10) main_call1.v4 main_call1.call0.v0 select,
    binary main_v11 main_arg6 main_v12 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v12 main_v13 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg7 main_v14 (broadcastInDim S1x64 ![1] bcast_S64_S1x64_1 : (⟨S64, .f32⟩ : BufTy).Contents (Elt F) → (⟨S1x64, .f32⟩ : BufTy).Contents (Elt F)),
    unary main_v14 main_v15 (broadcastInDim S10000x64 ![0, 1] bcast_S1x64_S10000x64_0_1 : (⟨S1x64, .f32⟩ : BufTy).Contents (Elt F) → (⟨S10000x64, .f32⟩ : BufTy).Contents (Elt F)),
    binary main_v13 main_v15 main_v16 (addf : (⟨S10000x64, .f32⟩ : BufTy).Contents (Elt F) → (⟨S10000x64, .f32⟩ : BufTy).Contents (Elt F) → (⟨S10000x64, .f32⟩ : BufTy).Contents (Elt F)) ]

/-- The program is that line: with the two helpers' bodies substituted at their calls, sequencing reassociated and the
    trailing returns dropped, both sides are the same chain of steps. -/
theorem main_eq (c : Dev nD) : main (F := F) c = seq ops := by
  simp only [main, fn_leaky_relu.body, fn_where.body, seq, bind_assoc, pure_bind]

/-- No array and no counter of this program is local to a region: every one lives for the whole run. -/
theorem scopedRefs_eq : (Finset.univ.filter fun b : Ref sig .tc => b.isScoped) = ∅ := by decide
theorem scopedSems_eq : (Finset.univ.filter fun sm : SemLoc sig => sm.isScoped .tc) = ∅ := by decide

/-- Each operation touches arrays of the compute core only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub ..⟩

/-- From any memory with all counters at zero, every fair execution of the reference ends; the last array then holds the
    three-layer composition of the argument arrays' initial contents, and each argument array holds what it held. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v16)
          = Cert.Spec.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v16).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

/-- In particular the reference runs to its end and leaves its arguments unchanged (the precondition is not needed). -/
theorem frame : Cert.frame_ReferenceIdeal :=
  fun m ρ _ => (θ_run Cert.ReferenceIdeal.defs _ _).mono (fun _ h c => (h c).2) (run m ρ)

end Cert.ReferenceIdeal.RefRun

end
-- ==== Proof.Assemble.lean ====
/-
  The two programs compute the same array.

  Followed region by region from the launch memory, the kernel program's result array is the three-layer graph
  convolution of its arguments: layer 1's region leaves act (adj · (x · W1) + b1) in its first output and the adjacency
  matrix itself (its copy in the narrower format, the same extended reals) in its second; layer 2's region, entered from
  those, leaves act (adj · (h1 · W2) + b2); layer 3's leaves adj · (h2 · W3) + b3. Each bias reaches its region as a
  one-row matrix whose entry (0, j) is the vector's entry j. The reference's run ends at the same term of its own
  arguments, which agree with the kernel program's.
-/
import proofs.«154258_g15032385536406_cont_week2b_1259_11_alg».proof.Defs
import proofs.«154258_g15032385536406_cont_week2b_1259_11_alg».proof.Proof.Gen.Pre_finite_inputs
import proofs.«154258_g15032385536406_cont_week2b_1259_11_alg».proof.Proof.HandRun
import proofs.«154258_g15032385536406_cont_week2b_1259_11_alg».proof.Proof.WHandRun
import proofs.«154258_g15032385536406_cont_week2b_1259_11_alg».proof.Proof.WR0Body
import proofs.«154258_g15032385536406_cont_week2b_1259_11_alg».proof.Proof.WR1Body
import proofs.«154258_g15032385536406_cont_week2b_1259_11_alg».proof.Proof.WR2Body
import proofs.«154258_g15032385536406_cont_week2b_1259_11_alg».proof.Proof.R0Body
import proofs.«154258_g15032385536406_cont_week2b_1259_11_alg».proof.Proof.R1Body
import proofs.«154258_g15032385536406_cont_week2b_1259_11_alg».proof.Proof.R2Body
import proofs.«154258_g15032385536406_cont_week2b_1259_11_alg».proof.Proof.R0Value
import proofs.«154258_g15032385536406_cont_week2b_1259_11_alg».proof.Proof.R1Value
import proofs.«154258_g15032385536406_cont_week2b_1259_11_alg».proof.Proof.R2Value
import proofs.«154258_g15032385536406_cont_week2b_1259_11_alg».proof.Proof.RefRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat BodyObligation)

/-- A vector laid out as a one-row matrix: entry (0, j) is the vector's entry j. -/
theorem row_apply {α : Type} (b : S64.Idx → α) (h : S64.ShapeCasts S1x64) (j : Fin 64) :
    shapeCast S1x64 b h (ix2 0 j) = b (ix1 j) :=
  (shapeCast_addUnit_apply ![64] b h (ix2 0 j)).trans (congrArg b (by funext a; match a with | ⟨0, _⟩ => rfl))

variable (m : (ℓ : Loc nD τ sig) → Buf (Elt Ideal) ℓ) (ρ : Dev nD → PrngReg)

/-- The kernel program's result array at the end of its run. -/
theorem result_eq (c : Dev nD) :
    W6 (F := Ideal) m ρ c (Proc.devRef .tc main_v5)
      = Cert.Spec.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h1 : (dat0 (F := Ideal) (V1 m ρ) c).arrAt 4 cfg0.N
      = Cert.Spec.act (Cert.Spec.aggregate (m ((c : Thread nD τ).loc main_arg1)) (Cert.Spec.project1 (m ((c : Thread nD τ).loc main_arg0)) (m ((c : Thread nD τ).loc main_arg2))) (m ((c : Thread nD τ).loc main_arg3))) := by
    rw [final0_h (V1 m ρ) c (m ((c : Thread nD τ).loc main_arg3)) (fun j => by rw [V1_main_v0]; exact row_apply _ _ j),
      V1_main_arg1, V1_main_arg0, V1_main_arg2]
  have ha : (dat0 (F := Ideal) (V1 m ρ) c).arrAt 5 cfg0.N = (m ((c : Thread nD τ).loc main_arg1)) := by
    rw [final0_adj (V1 m ρ) c, V1_main_arg1]
  have h2 : (dat1 (F := Ideal) (V3 m ρ) c).arrAt 4 cfg1.N
      = Cert.Spec.act (Cert.Spec.aggregate (m ((c : Thread nD τ).loc main_arg1)) (Cert.Spec.projectK
          (Cert.Spec.act (Cert.Spec.aggregate (m ((c : Thread nD τ).loc main_arg1)) (Cert.Spec.project1 (m ((c : Thread nD τ).loc main_arg0)) (m ((c : Thread nD τ).loc main_arg2))) (m ((c : Thread nD τ).loc main_arg3)))) (m ((c : Thread nD τ).loc main_arg4))) (m ((c : Thread nD τ).loc main_arg5))) := by
    rw [final1 (V3 m ρ) c (m ((c : Thread nD τ).loc main_arg5)) (fun j => by rw [V3_main_v2]; exact row_apply _ _ j),
      V3_main_v1_1, ha, V3_main_v1_0, h1, V3_main_arg4]
  rw [W6_main_v5, final2 (V5 m ρ) c (m ((c : Thread nD τ).loc main_arg7)) (fun j => by rw [V5_main_v4]; exact row_apply _ _ j),
    V5_main_v1_1, ha, V5_main_v3, h2, V5_main_arg6]
  rfl

end Cert.KernelIdeal.Hand

/-! ## The claims -/

namespace Cert.Proof.Claims

open Idealize.ShloMosaic Idealize.ShloMosaic.TcCoe Idealize.SL Idealize.SL.Sem

theorem frame_k : Cert.frame_Kernel := fun m ρ _ =>
  Cert.Kernel.Hand.frame_of_run m ρ Cert.Kernel.Hand.body_obligation0 Cert.Kernel.Hand.body_obligation1 Cert.Kernel.Hand.body_obligation2

theorem frame_ki : Cert.frame_KernelIdeal := fun m ρ _ =>
  Cert.KernelIdeal.Hand.frame_of_run m ρ Cert.KernelIdeal.Hand.body_obligation0 Cert.KernelIdeal.Hand.body_obligation1 Cert.KernelIdeal.Hand.body_obligation2

theorem frame_ri : Cert.frame_ReferenceIdeal := Cert.ReferenceIdeal.RefRun.frame

theorem preserves : Cert.preserves_Kernel_KernelIdeal := trivial

open Cert.KernelIdeal Cert.KernelIdeal.Hand in
/-- Both programs end at the graph convolution of arguments that agree. -/
theorem algebraic : Cert.algebraic_KernelIdeal_ReferenceIdeal := by
  intro m ρ m' ρ' _ hagree
  refine ⟨fun c => Cert.Spec.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · exact (θ_run Cert.KernelIdeal.defs _ _).mono (fun r h c =>
      ⟨(h c _ (mem_uc main_v5 (by decide))).trans (result_eq m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
      (run_all (F := Ideal) m ρ body_obligation0 body_obligation1 body_obligation2)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]

end Cert.Proof.Claims

end
-- ==== Proof.lean ====
/-
  A three-layer graph convolution  h ↦ act (adj · (h · W) + b)  (the last layer without act) computed two ways: by a program of
  three tiled kernels, one per layer, each of which projects the features once into a buffer it keeps across its grid and
  then streams blocks of rows of the adjacency matrix through it; and by the plain array program. At the exact instance the
  narrower number format the kernels pass through is the identity and a tiled product is the same sum as the plain one, so
  both end holding the same array; and each program, at its own instance, runs to the end without fault and leaves its
  argument arrays as they were. The parts: the specification (Spec), the kernels' arithmetic against it (Payloads), each
  region's body, data and output array (R0…, R1…, R2… and their word-level twins WR…), the run through the three regions
  (HandRun, WHandRun), the reference's run (RefRun), and the assembly of the five claims (Assemble).
-/
import proofs.«154258_g15032385536406_cont_week2b_1259_11_alg».proof.Defs
import proofs.«154258_g15032385536406_cont_week2b_1259_11_alg».proof.Proof.Gen.Kernel
import proofs.«154258_g15032385536406_cont_week2b_1259_11_alg».proof.Proof.Gen.KernelIdeal
import proofs.«154258_g15032385536406_cont_week2b_1259_11_alg».proof.Proof.Gen.ReferenceIdeal
import proofs.«154258_g15032385536406_cont_week2b_1259_11_alg».proof.Proof.Gen.Pre_finite_inputs
import proofs.«154258_g15032385536406_cont_week2b_1259_11_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
